-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_cst)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_cst) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_cst_3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x256x1 : Shape := ⟨4, ![64, 256, 256, 1]⟩
abbrev S64x256x128 : Shape := ⟨3, ![64, 256, 128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S64x256x256x1 : S_.BroadcastsInDim S64x256x256x1 (![] : Fin 0 → Fin S64x256x256x1.rank)
  reducesTo_S64x256x256x1_S_d0_1_2_3 : S64x256x256x1.ReducesTo [0, 1, 2, 3] S_
  h_S_ : 0 < S_.numel
  bcast_S_S64x256x128 : S_.BroadcastsInDim S64x256x128 (![] : Fin 0 → Fin S64x256x128.rank)
  reducesTo_S64x256x128_S_d0_1_2 : S64x256x128.ReducesTo [0, 1, 2] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S256 .f32) (main_arg8 : FVec F S256x128 .f32) (main_arg9 : FVec F S128 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg8
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S256x256 .f32) (main_arg5 : FVec F S256 .f32) (main_arg6 : FVec F S256x256 .f32) (main_arg7 : FVec F S256 .f32) (main_arg8 : FVec F S256x128 .f32) (main_arg9 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S64x256x256x1 .f32) (main_arg1 : FVec F S64x256x128 .f32) (main_arg2 : FVec F S128x256 .f32) (main_arg3 : FVec F S256 .f32) (main_arg4 : FVec F S256x256 .f32) (main_arg5 : FVec F S256 .f32) (main_arg6 : FVec F S256x256 .f32) (main_arg7 : FVec F S256 .f32) (main_arg8 : FVec F S256x128 .f32) (main_arg9 : FVec F S128 .f32) : IVec S_ 1 :=
  let main_v0 : FVec F S64x256x256x1 .f32 := Host.absf main_arg0
  let main_cst : FVec F S_ .f32 := constant S_ .f32 0x7F800000#32
  let main_v1 : FVec F S64x256x256x1 .f32 := broadcastInDim S64x256x256x1 ![] bcast_S_S64x256x256x1 main_cst
  let main_v2 : IVec S64x256x256x1 1 := cmpf .olt main_v0 main_v1
  let main_c : IVec S_ 1 := constantI S_ 1 1#1
  let main_v3 : IVec S_ 1 := (fun x v => Host.reduce IntOp.andi x v reducesTo_S64x256x256x1_S_d0_1_2_3 h_S_) main_v2 main_c
  let main_v4 : FVec F S64x256x128 .f32 := Host.absf main_arg1
  let main_cst_0 : FVec F S_ .f32 := constant S_ .f32 0x7F800000#32
  let main_v5 : FVec F S64x256x128 .f32 := broadcastInDim S64x256x128 ![] bcast_S_S64x256x128 main_cst_0
  let main_v6 : IVec S64x256x128 1 := cmpf .olt main_v4 main_v5
  let main_c_1 : IVec S_ 1 := constantI S_ 1 1#1
  let main_v7 : IVec S_ 1 := (fun x v => Host.reduce IntOp.andi x v reducesTo_S64x256x128_S_d0_1_2 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S64x256x256x1 : Shape := ⟨4, ![64, 256, 256, 1]⟩
abbrev S64x256x128 : Shape := ⟨3, ![64, 256, 128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S64x512x128 : Shape := ⟨3, ![64, 512, 128]⟩
abbrev S64x128 : Shape := ⟨2, ![64, 128]⟩
abbrev S16x512x128 : Shape := ⟨3, ![16, 512, 128]⟩
abbrev S16x256x128 : Shape := ⟨3, ![16, 256, 128]⟩
abbrev S16x128 : Shape := ⟨2, ![16, 128]⟩
abbrev S16x256x256 : Shape := ⟨3, ![16, 256, 256]⟩
abbrev S4096x128 : Shape := ⟨2, ![4096, 128]⟩
abbrev S4096x256 : Shape := ⟨2, ![4096, 256]⟩
abbrev S1x256 : Shape := ⟨2, ![1, 256]⟩
abbrev S16x256 : Shape := ⟨2, ![16, 256]⟩
abbrev S1x128 : Shape := ⟨2, ![1, 128]⟩
abbrev S_ : Shape := ⟨0, ![]⟩

abbrev nBuf : Space → Nat
  | .hbm => 13
  | .vmem => 14
  | .smem => 0
  | _ => 0

abbrev bufTy : (tb : Table) → Fin (tcTables nBuf tb) → BufTy
  | .hbm, ⟨0, _⟩ => ⟨S64x256x256x1, .f32⟩
  | .hbm, ⟨1, _⟩ => ⟨S64x256x128, .f32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S64x512x128, .f32⟩
  | .hbm, ⟨11, _⟩ => ⟨S64x128, .f32⟩
  | .hbm, ⟨12, _⟩ => ⟨S_, .f32⟩
  | .local _ .vmem, ⟨0, _⟩ => ⟨S16x512x128, .f32⟩
  | .local _ .vmem, ⟨1, _⟩ => ⟨S16x512x128, .f32⟩
  | .local _ .vmem, ⟨2, _⟩ => ⟨S16x256x128, .f32⟩
  | .local _ .vmem, ⟨3, _⟩ => ⟨S16x256x128, .f32⟩
  | .local _ .vmem, ⟨4, _⟩ => ⟨S128x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S256x256, .f32⟩
  | .local _ .vmem, ⟨9, _⟩ => ⟨S256, .f32⟩
  | .local _ .vmem, ⟨10, _⟩ => ⟨S256x128, .f32⟩
  | .local _ .vmem, ⟨11, _⟩ => ⟨S128, .f32⟩
  | .local _ .vmem, ⟨12, _⟩ => ⟨S16x128, .f32⟩
  | .local _ .vmem, ⟨13, _⟩ => ⟨S16x128, .f32⟩
  | _, _ => ⟨S64x256x256x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S16x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S64x256x256x1_S64x512x128 : S64x256x256x1.ShapeCasts S64x512x128
  inb_S16x512x128_S16x512x128_0_0_0 : ∀ a, (![0, 0, 0] : Fin 3 → Nat) a + S16x512x128.size a ≤ S16x512x128.size a
  h_S16x512x128 : 0 < S16x512x128.numel
  shapeCasts_S16x512x128_S16x512x128 : S16x512x128.ShapeCasts S16x512x128
  shapeCasts_S16x512x128_S16x256x256 : S16x512x128.ShapeCasts S16x256x256
  inb_S16x256x128_S16x256x128_0_0_0 : ∀ a, (![0, 0, 0] : Fin 3 → Nat) a + S16x256x128.size a ≤ S16x256x128.size a
  h_S16x256x128 : 0 < S16x256x128.numel
  shapeCasts_S16x256x128_S4096x128 : S16x256x128.ShapeCasts S4096x128
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  shapeCasts_S4096x256_S16x256x256 : S4096x256.ShapeCasts S16x256x256
  shapeCasts_S16x256x256_S4096x256 : S16x256x256.ShapeCasts S4096x256
  inb_S256x256_S256x256_0_0 : ∀ a, (![0, 0] : Fin 2 → Nat) a + S256x256.size a ≤ S256x256.size a
  h_S256x256 : 0 < S256x256.numel
  reduces_S16x256x256_S16x256 : S16x256x256.Reduces [1] S16x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S16x128 : S1x128.Broadcasts S16x128
  inb_S16x128_S16x128_0_0 : ∀ a, (![0, 0] : Fin 2 → Nat) a + S16x128.size a ≤ S16x128.size a
  h_S16x128 : 0 < S16x128.numel
  dot_S16x256x256_S16x256x128_S16x256x128_2_1_1_2_0_0_wf : DotDims.WF S16x256x256 S16x256x128 S16x256x128 [2] [1] [1] [2] [0] [0]
  dot_S4096x128_S128x256_S4096x256_1_0_0_1_n_n_wf : DotDims.WF S4096x128 S128x256 S4096x256 [1] [0] [0] [1] [] []
  dot_S16x256x256_S16x256x256_S16x256x256_2_1_1_2_0_0_wf : DotDims.WF S16x256x256 S16x256x256 S16x256x256 [2] [1] [1] [2] [0] [0]
  dot_S4096x256_S256x256_S4096x256_1_0_0_1_n_n_wf : DotDims.WF S4096x256 S256x256 S4096x256 [1] [0] [0] [1] [] []
  dot_S16x256_S256x128_S16x128_1_0_0_1_n_n_wf : DotDims.WF S16x256 S256x128 S16x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512x128.size a ≤ S64x512x128.size a
  hwx0_0 : ∀ i : grid0.Coords, EltTy.bits .f32 = 32 ∨ (Rect.block (s := S64x512x128) S16x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x128.size a ≤ S64x256x128.size a
  hwx0_1 : ∀ i : grid0.Coords, EltTy.bits .f32 = 32 ∨ (Rect.block (s := S64x256x128) S16x256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x128.size a
  hwx0_8 : ∀ i : grid0.Coords, EltTy.bits .f32 = 32 ∨ (Rect.block (s := S256x128) S256x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S16x128.size a ≤ S64x128.size a
  hwx0_10 : ∀ i : grid0.Coords, EltTy.bits .f32 = 32 ∨ (Rect.block (s := S64x128) S16x128.size (cc0_transform_10 i) (hinb0_10 i)).WholeWords (EltTy.packing .f32)

variable [Facts₀]

def dot_S16x256x256_S16x256x128_S16x256x128_2_1_1_2_0_0 : DotDims S16x256x256 S16x256x128 S16x256x128 where
  lhsContracting := [2]
  rhsContracting := [1]
  lhsNonContracting := [1]
  rhsNonContracting := [2]
  lhsBatch := [0]
  rhsBatch := [0]
  wf := dot_S16x256x256_S16x256x128_S16x256x128_2_1_1_2_0_0_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S16x256x256_S16x256x256_S16x256x256_2_1_1_2_0_0 : DotDims S16x256x256 S16x256x256 S16x256x256 where
  lhsContracting := [2]
  rhsContracting := [1]
  lhsNonContracting := [1]
  rhsNonContracting := [2]
  lhsBatch := [0]
  rhsBatch := [0]
  wf := dot_S16x256x256_S16x256x256_S16x256x256_2_1_1_2_0_0_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S16x256_S256x128_S16x128_1_0_0_1_n_n : DotDims S16x256 S256x128 S16x128 where
  lhsContracting := [1]
  rhsContracting := [0]
  lhsNonContracting := [0]
  rhsNonContracting := [1]
  lhsBatch := []
  rhsBatch := []
  wf := dot_S16x256_S256x128_S16x128_1_0_0_1_n_n_wf

abbrev win0_0 : Pipeline.Window sig grid0 :=
  Pipeline.Window.ofSpec (Memref.whole main_v0) S16x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v1) S16x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S64x256x256x1 : Shape := ⟨4, ![64, 256, 256, 1]⟩
abbrev S64x256x128 : Shape := ⟨3, ![64, 256, 128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S64x256x256 : Shape := ⟨3, ![64, 256, 256]⟩
abbrev S_ : Shape := ⟨0, ![]⟩
abbrev S1x1x256 : Shape := ⟨3, ![1, 1, 256]⟩
abbrev S64x256 : Shape := ⟨2, ![64, 256]⟩
abbrev S64x128 : Shape := ⟨2, ![64, 128]⟩
abbrev S1x128 : Shape := ⟨2, ![1, 128]⟩

abbrev nBuf : Space → Nat
  | .hbm => 54
  | .vmem => 0
  | .smem => 0
  | _ => 0

abbrev bufTy : (tb : Table) → Fin (tcTables nBuf tb) → BufTy
  | .hbm, ⟨0, _⟩ => ⟨S64x256x256x1, .f32⟩
  | .hbm, ⟨1, _⟩ => ⟨S64x256x128, .f32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S64x256x256, .f32⟩
  | .hbm, ⟨11, _⟩ => ⟨S64x256x128, .f32⟩
  | .hbm, ⟨12, _⟩ => ⟨S_, .f32⟩
  | .hbm, ⟨13, _⟩ => ⟨S64x256x128, .f32⟩
  | .hbm, ⟨14, _⟩ => ⟨S64x256x128, .f32⟩
  | .hbm, ⟨15, _⟩ => ⟨S64x256x128, .f32⟩
  | .hbm, ⟨16, _⟩ => ⟨S64x256x256, .f32⟩
  | .hbm, ⟨17, _⟩ => ⟨S1x1x256, .f32⟩
  | .hbm, ⟨18, _⟩ => ⟨S64x256x256, .f32⟩
  | .hbm, ⟨19, _⟩ => ⟨S64x256x256, .f32⟩
  | .hbm, ⟨20, _⟩ => ⟨S_, .f32⟩
  | .hbm, ⟨21, _⟩ => ⟨S64x256x256, .f32⟩
  | .hbm, ⟨22, _⟩ => ⟨S64x256x256, .f32⟩
  | .hbm, ⟨23, _⟩ => ⟨S64x256x256, .f32⟩
  | .hbm, ⟨24, _⟩ => ⟨S_, .f32⟩
  | .hbm, ⟨25, _⟩ => ⟨S64x256x256, .f32⟩
  | .hbm, ⟨26, _⟩ => ⟨S64x256x256, .f32⟩
  | .hbm, ⟨27, _⟩ => ⟨S64x256x256, .f32⟩
  | .hbm, ⟨28, _⟩ => ⟨S64x256x256, .f32⟩
  | .hbm, ⟨29, _⟩ => ⟨S1x1x256, .f32⟩
  | .hbm, ⟨30, _⟩ => ⟨S64x256x256, .f32⟩
  | .hbm, ⟨31, _⟩ => ⟨S64x256x256, .f32⟩
  | .hbm, ⟨32, _⟩ => ⟨S_, .f32⟩
  | .hbm, ⟨33, _⟩ => ⟨S64x256x256, .f32⟩
  | .hbm, ⟨34, _⟩ => ⟨S64x256x256, .f32⟩
  | .hbm, ⟨35, _⟩ => ⟨S64x256x256, .f32⟩
  | .hbm, ⟨36, _⟩ => ⟨S_, .f32⟩
  | .hbm, ⟨37, _⟩ => ⟨S64x256x256, .f32⟩
  | .hbm, ⟨38, _⟩ => ⟨S64x256x256, .f32⟩
  | .hbm, ⟨39, _⟩ => ⟨S64x256x256, .f32⟩
  | .hbm, ⟨40, _⟩ => ⟨S64x256x256, .f32⟩
  | .hbm, ⟨41, _⟩ => ⟨S1x1x256, .f32⟩
  | .hbm, ⟨42, _⟩ => ⟨S64x256x256, .f32⟩
  | .hbm, ⟨43, _⟩ => ⟨S64x256x256, .f32⟩
  | .hbm, ⟨44, _⟩ => ⟨S_, .f32⟩
  | .hbm, ⟨45, _⟩ => ⟨S64x256x256, .f32⟩
  | .hbm, ⟨46, _⟩ => ⟨S64x256x256, .f32⟩
  | .hbm, ⟨47, _⟩ => ⟨S_, .f32⟩
  | .hbm, ⟨48, _⟩ => ⟨S64x256, .f32⟩
  | .hbm, ⟨49, _⟩ => ⟨S64x128, .f32⟩
  | .hbm, ⟨50, _⟩ => ⟨S1x128, .f32⟩
  | .hbm, ⟨51, _⟩ => ⟨S64x128, .f32⟩
  | .hbm, ⟨52, _⟩ => ⟨S64x128, .f32⟩
  | .hbm, ⟨53, _⟩ => ⟨S_, .f32⟩
  | _, _ => ⟨S64x256x256x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call0_cst : Ref sig .tc := ⟨.hbm, 20, rfl⟩
abbrev main_call0_v0 : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call1_cst : Ref sig .tc := ⟨.hbm, 32, rfl⟩
abbrev main_call1_v0 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call2_cst : Ref sig .tc := ⟨.hbm, 44, rfl⟩
abbrev main_call2_v0 : Ref sig .tc := ⟨.hbm, 45, rfl⟩
abbrev main_v27 : Ref sig .tc := ⟨.hbm, 46, rfl⟩
abbrev main_cst_2 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_3 : Ref sig .tc := ⟨.hbm, 53, rfl⟩

abbrev nD : Nat := 1
abbrev τ : Topo := Topo.v7x

variable {F : FTy → Type} [FloatOps F]

class Facts₀ : Prop where
  shapeCasts_S64x256x256x1_S64x256x256 : S64x256x256x1.ShapeCasts S64x256x256
  bcast_S_S64x256x128 : S_.BroadcastsInDim S64x256x128 (![] : Fin 0 → Fin S64x256x128.rank)
  bcast_S256_S1x1x256_2 : S256.BroadcastsInDim S1x1x256 (![2] : Fin 1 → Fin S1x1x256.rank)
  bcast_S1x1x256_S64x256x256_0_1_2 : S1x1x256.BroadcastsInDim S64x256x256 (![0, 1, 2] : Fin 3 → Fin S64x256x256.rank)
  bcast_S_S64x256x256 : S_.BroadcastsInDim S64x256x256 (![] : Fin 0 → Fin S64x256x256.rank)
  reducesTo_S64x256x256_S64x256_d1 : S64x256x256.ReducesTo [1] S64x256
  h_S_ : 0 < S_.numel
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  dot_S64x256x256_S64x256x128_S64x256x128_2_1_1_2_0_0_wf : DotDims.WF S64x256x256 S64x256x128 S64x256x128 [2] [1] [1] [2] [0] [0]
  dot_S64x256x128_S128x256_S64x256x256_2_0_01_1_n_n_wf : DotDims.WF S64x256x128 S128x256 S64x256x256 [2] [0] [0, 1] [1] [] []
  dot_S64x256x256_S64x256x256_S64x256x256_2_1_1_2_0_0_wf : DotDims.WF S64x256x256 S64x256x256 S64x256x256 [2] [1] [1] [2] [0] [0]
  dot_S64x256x256_S256x256_S64x256x256_2_0_01_1_n_n_wf : DotDims.WF S64x256x256 S256x256 S64x256x256 [2] [0] [0, 1] [1] [] []
  dot_S64x256_S256x128_S64x128_1_0_0_1_n_n_wf : DotDims.WF S64x256 S256x128 S64x128 [1] [0] [0] [1] [] []

variable [Facts₀]

def dot_S64x256x256_S64x256x128_S64x256x128_2_1_1_2_0_0 : DotDims S64x256x256 S64x256x128 S64x256x128 where
  lhsContracting := [2]
  rhsContracting := [1]
  lhsNonContracting := [1]
  rhsNonContracting := [2]
  lhsBatch := [0]
  rhsBatch := [0]
  wf := dot_S64x256x256_S64x256x128_S64x256x128_2_1_1_2_0_0_wf
def dot_S64x256x128_S128x256_S64x256x256_2_0_01_1_n_n : DotDims S64x256x128 S128x256 S64x256x256 where
  lhsContracting := [2]
  rhsContracting := [0]
  lhsNonContracting := [0, 1]
  rhsNonContracting := [1]
  lhsBatch := []
  rhsBatch := []
  wf := dot_S64x256x128_S128x256_S64x256x256_2_0_01_1_n_n_wf
def dot_S64x256x256_S64x256x256_S64x256x256_2_1_1_2_0_0 : DotDims S64x256x256 S64x256x256 S64x256x256 where
  lhsContracting := [2]
  rhsContracting := [1]
  lhsNonContracting := [1]
  rhsNonContracting := [2]
  lhsBatch := [0]
  rhsBatch := [0]
  wf := dot_S64x256x256_S64x256x256_S64x256x256_2_1_1_2_0_0_wf
def dot_S64x256x256_S256x256_S64x256x256_2_0_01_1_n_n : DotDims S64x256x256 S256x256 S64x256x256 where
  lhsContracting := [2]
  rhsContracting := [0]
  lhsNonContracting := [0, 1]
  rhsNonContracting := [1]
  lhsBatch := []
  rhsBatch := []
  wf := dot_S64x256x256_S256x256_S64x256x256_2_0_01_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf

class Facts : Prop extends Facts₀ where

variable [Facts]
-- ==== Proof.Net.lean ====
/-
  The graph network both programs compute, for ONE graph, as plain functions of finite indices over the
  extended reals.

  A graph has 256 nodes; `a n j` is the weight of the edge from node `j` into node `n` and `h n k` is feature
  `k` of node `n`. A layer first adds to every node the weighted sum of its neighbours' features (`agg`), then
  applies to each node the same affine map followed by the positive part (`dense`). Three layers are followed by
  the sum of the node features over the nodes and one more affine map (`readout`).

  Nothing here depends on finiteness: the only identities used later are that both programs form these very sums,
  and that one times an extended real is that extended real.
-/
import Idealize.ShloMosaic.PureOps.Ideal
import Idealize.ShloMosaic.Lib.ValueIdx

noncomputable section

open scoped BigOperators

namespace Cert.Gin

open Idealize.ShloMosaic Idealize.ShloMosaic.ValueIdx

/-- The value of the f32 zero word: what the positive part is taken against. -/
abbrev z : EReal := Ideal.ofBits .f32 0x00000000#32

/-- Neighbourhood aggregation: feature `k` of node `n` becomes the sum over the nodes `j` of the edge weight
    `a n j` times feature `k` of node `j`, plus the node's own feature. -/
def agg {d : ℕ} (a : Fin 256 → Fin 256 → EReal) (h : Fin 256 → Fin d → EReal) : Fin 256 → Fin d → EReal :=
  fun n k => (∑ j : Fin 256, a n j * h j k) + h n k

/-- The node update: output feature `f` of node `n` is the positive part — the maximum with `z`, the value of the
    zero word — of the sum over `k` of the node's feature `k` times `W k f`, plus `c f`. -/
def dense {d : ℕ} (z : EReal) (g : Fin 256 → Fin d → EReal) (W : Fin d → Fin 256 → EReal) (c : Fin 256 → EReal) :
    Fin 256 → Fin 256 → EReal :=
  fun n f => max ((∑ k : Fin d, g n k * W k f) + c f) z

/-- One layer: aggregation, then the node update. -/
def layer {d : ℕ} (z : EReal) (a : Fin 256 → Fin 256 → EReal) (h : Fin 256 → Fin d → EReal) (W : Fin d → Fin 256 → EReal)
    (c : Fin 256 → EReal) : Fin 256 → Fin 256 → EReal :=
  dense z (agg a h) W c

/-- The pooled features: feature `f` summed over the nodes. -/
def pool (h : Fin 256 → Fin 256 → EReal) : Fin 256 → EReal :=
  fun f => ∑ n : Fin 256, h n f

/-- The readout: output `o` is the sum over `f` of the pooled feature `f` times `W f o`, plus `c o`. -/
def readout (h : Fin 256 → Fin 256 → EReal) (W : Fin 256 → Fin 128 → EReal) (c : Fin 128 → EReal) : Fin 128 → EReal :=
  fun o => (∑ f : Fin 256, pool h f * W f o) + c o

/-- The whole network on one graph: three layers, the first from 128 input features, then the readout. -/
def net (z : EReal) (a : Fin 256 → Fin 256 → EReal) (x : Fin 256 → Fin 128 → EReal)
    (W1 : Fin 128 → Fin 256 → EReal) (c1 : Fin 256 → EReal) (W2 : Fin 256 → Fin 256 → EReal) (c2 : Fin 256 → EReal)
    (W3 : Fin 256 → Fin 256 → EReal) (c3 : Fin 256 → EReal) (Wo : Fin 256 → Fin 128 → EReal) (co : Fin 128 → EReal) :
    Fin 128 → EReal :=
  readout (layer z a (layer z a (layer z a x W1 c1) W2 c2) W3 c3) Wo co

/-! ## One graph's share of the arrays

The programs hold the data of all graphs in arrays; these are the pieces of them that one graph's network reads. -/

/-- A matrix as a function of its row and column. -/
def mat {a b : ℕ} (W : (⟨2, ![a, b]⟩ : Shape).Idx → EReal) : Fin a → Fin b → EReal := fun k f => W (ix2 k f)

/-- A vector as a function of its position. -/
def vec {a : ℕ} (c : (⟨1, ![a]⟩ : Shape).Idx → EReal) : Fin a → EReal := fun f => c (ix1 f)

/-- Entry `g` along the leading axis of a rank-three array: the node features of graph `g`. -/
def slab {B a b : ℕ} (x : (⟨3, ![B, a, b]⟩ : Shape).Idx → EReal) (g : Fin B) : Fin a → Fin b → EReal :=
  fun n k => x (ix3 g n k)

/-- The edge weights of graph `g` in the `[B, 256, 256, 1]` array of all graphs' weights. -/
def adj {B : ℕ} (G : (⟨4, ![B, 256, 256, 1]⟩ : Shape).Idx → EReal) (g : Fin B) : Fin 256 → Fin 256 → EReal :=
  fun n j => G (ix4 g n j (0 : Fin 1))

end Cert.Gin

end
-- ==== Proof.Whole.lean ====
/-
  The result array of both programs as ONE function of the ten argument arrays: entry `(b, o)` is output `o` of the
  network of graph `b`, read off the arrays that hold all 64 graphs.
-/
import proofs.«117813_g420906795687_cont_8to1_b_386_36_alg».proof.Proof.Net

noncomputable section

namespace Cert.Gin

open Idealize.ShloMosaic Idealize.ShloMosaic.ValueIdx

/-- The `[64, 128]` result: row `b` is the network of graph `b` — its edge weights and node features taken from the
    arrays of all graphs, the matrices and bias vectors shared by every graph. -/
def G (a0 : (⟨4, ![64, 256, 256, 1]⟩ : Shape).Idx → EReal) (a1 : (⟨3, ![64, 256, 128]⟩ : Shape).Idx → EReal)
    (a2 : (⟨2, ![128, 256]⟩ : Shape).Idx → EReal) (a3 : (⟨1, ![256]⟩ : Shape).Idx → EReal)
    (a4 : (⟨2, ![256, 256]⟩ : Shape).Idx → EReal) (a5 : (⟨1, ![256]⟩ : Shape).Idx → EReal)
    (a6 : (⟨2, ![256, 256]⟩ : Shape).Idx → EReal) (a7 : (⟨1, ![256]⟩ : Shape).Idx → EReal)
    (a8 : (⟨2, ![256, 128]⟩ : Shape).Idx → EReal) (a9 : (⟨1, ![128]⟩ : Shape).Idx → EReal) :
    (⟨2, ![64, 128]⟩ : Shape).Idx → EReal :=
  fun i => net z (adj a0 (i 0)) (slab a1 (i 0)) (mat a2) (vec a3) (mat a4) (vec a5) (mat a6) (vec a7) (mat a8) (vec a9) (i 1)

end Cert.Gin

end
-- ==== Proof.LibDotSum.lean ====
/-
  A contraction over ONE axis, re-indexed by that axis's coordinate.

  A matrix product's sum ranges over the contraction shape's index set; when one axis is contracted that set
  is in bijection with `Fin K`, and the sum becomes the familiar `∑ k : Fin K, L k * R k` once each operand
  is known at the operand indices.
-/
import Idealize.ShloMosaic.PureOps.Ideal
import Idealize.ShloMosaic.PureOps.Ideal.Laws
import Idealize.ShloMosaic.Lib.ValueIdx

noncomputable section

open scoped BigOperators

namespace Idealize.ShloMosaic.LibDotSum

open Idealize.ShloMosaic Idealize.ShloMosaic.ValueIdx

/-- The contraction sum of a one-axis dot as a sum over the contracted coordinate `k : Fin K`, given each
    operand's value at the operand index of `k`. -/
theorem sum_single {sl sr so : Shape} (D : DotDims sl sr so) (K : Nat) (hr : D.contr.rank = 1)
    (hs : D.contr.size ⟨0, by omega⟩ = K) (lhs : sl.Idx → EReal) (rhs : sr.Idx → EReal) (j : so.Idx)
    (L R : Fin K → EReal)
    (hl : ∀ k : Fin K, lhs (D.lhsIdx j ((contrEquiv1 D K hr hs).symm k)) = L k)
    (hrr : ∀ k : Fin K, rhs (D.rhsIdx j ((contrEquiv1 D K hr hs).symm k)) = R k) :
    ∑ q : D.contr.Idx, lhs (D.lhsIdx j q) * rhs (D.rhsIdx j q) = ∑ k : Fin K, L k * R k := by
  rw [← Equiv.sum_comp (contrEquiv1 D K hr hs).symm]
  exact Finset.sum_congr rfl fun k _ => by rw [hl k, hrr k]

/-- The left operand's coordinate on the single contracted axis is the contracted coordinate. -/
theorem lhs_contr_val {sl sr so : Shape} (D : DotDims sl sr so) (K : Nat) (hr : D.contr.rank = 1)
    (hs : D.contr.size ⟨0, by omega⟩ = K) {cl : Fin sl.rank} (hc : D.lhsContracting = [cl]) (j : so.Idx) (k : Fin K) :
    (D.lhsIdx j ((contrEquiv1 D K hr hs).symm k) cl).val = k.val :=
  (D.lhsIdx_val_of_single hc j _).trans (contrEquiv1_symm_val D K hr hs k)

/-- The right operand's coordinate on the single contracted axis is the contracted coordinate. -/
theorem rhs_contr_val {sl sr so : Shape} (D : DotDims sl sr so) (K : Nat) (hr : D.contr.rank = 1)
    (hs : D.contr.size ⟨0, by omega⟩ = K) {cr : Fin sr.rank} (hc : D.rhsContracting = [cr]) (j : so.Idx) (k : Fin K) :
    (D.rhsIdx j ((contrEquiv1 D K hr hs).symm k) cr).val = k.val :=
  (D.rhsIdx_val_of_single hc j _).trans (contrEquiv1_symm_val D K hr hs k)

end Idealize.ShloMosaic.LibDotSum

end
-- ==== Proof.LibMatmul2.lean ====
/-
  A matrix product of a `[M, K]` array by a `[K, N]` array, contracted over the one shared axis, read at `(p, q)`:
  the sum over `k` of the left operand at `(p, k)` times the right operand at `(k, q)`.
-/
import Idealize.ShloMosaic.PureOps.Ideal
import Idealize.ShloMosaic.PureOps.Ideal.Laws
import Idealize.ShloMosaic.Lib.ValueIdx
import proofs.«117813_g420906795687_cont_8to1_b_386_36_alg».proof.Proof.LibDotSum

noncomputable section

open scoped BigOperators

namespace Idealize.ShloMosaic.LibMatmul2

open Idealize.ShloMosaic Idealize.ShloMosaic.ValueIdx

/-- The contraction sum of a `[M, K] × [K, N]` product at `(p, q)`, over the contracted coordinate.  The two facts
    about the free axes (`hl0`, `hr1`: the left operand's row is the result's row, the right operand's column the result's
    column) are read off a program's literal dimension numbers. -/
theorem contr_sum {M K N : Nat} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (x : (⟨2, ![M, K]⟩ : Shape).Idx → EReal) (y : (⟨2, ![K, N]⟩ : Shape).Idx → EReal) (p : Fin M) (q : Fin N) :
    ∑ c : D.contr.Idx, x (D.lhsIdx (ix2 p q) c) * y (D.rhsIdx (ix2 p q) c) = ∑ k : Fin K, x (ix2 p k) * y (ix2 k q) := by
  refine LibDotSum.sum_single D K hr hs x y (ix2 p q) (fun k => x (ix2 p k)) (fun k => y (ix2 k q)) (fun k => ?_) (fun k => ?_)
  · refine congrArg x (funext fun a => Fin.ext ?_)
    match a with
    | ⟨0, _⟩ => exact hl0 _ _
    | ⟨1, _⟩ => exact LibDotSum.lhs_contr_val D K hr hs hlc _ k
  · refine congrArg y (funext fun a => Fin.ext ?_)
    match a with
    | ⟨0, _⟩ => exact LibDotSum.rhs_contr_val D K hr hs hrc _ k
    | ⟨1, _⟩ => exact hr1 _ _

/-- A kernel's matrix product into a zero accumulator, at `(p, q)`. -/
theorem matmul_zero_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) :=
  (Ideal.matmul_constant_zero_apply D prec x y (ix2 p q)).trans (contr_sum D hr hs hlc hrc hl0 hr1 x y p q)

/-- The host's `dot_general` of the same shape, at `(p, q)`. -/
theorem dotGeneral_apply {M K N : Nat} {φ₁ φ₂ : FTy} (D : DotDims ⟨2, ![M, K]⟩ ⟨2, ![K, N]⟩ ⟨2, ![M, N]⟩) (hr : D.contr.rank = 1)
    (hs : D.contr.size ⟨0, by omega⟩ = K) (hlc : D.lhsContracting = [1]) (hrc : D.rhsContracting = [0])
    (hl0 : ∀ j q, (D.lhsIdx j q 0).val = (j 0).val) (hr1 : ∀ j q, (D.rhsIdx j q 1).val = (j 1).val)
    (prec : Option ContractPrecision) (x : FVec Ideal ⟨2, ![M, K]⟩ φ₁) (y : FVec Ideal ⟨2, ![K, N]⟩ φ₂) (p : Fin M) (q : Fin N) :
    Host.dotGeneral D prec x y (ix2 p q) = ∑ k : Fin K, x (ix2 p k) * y (ix2 k q) := by
  simp only [Host.dotGeneral]
  rw [Ideal.dotGeneral_apply]
  exact contr_sum D hr hs hlc hrc hl0 hr1 x y p q

end Idealize.ShloMosaic.LibMatmul2

end
-- ==== Proof.LibBatchMatmul.lean ====
/-
  A batched matrix product: for every batch entry `b`, an `[M, K]` matrix times a `[K, N]` matrix.

  The operands are `[B, M, K]` and `[B, K, N]` arrays, the leading axis of both is the batch axis, and the last axis
  of the left operand is contracted with the middle axis of the right one. Read at `(b, p, q)` the product is the sum
  over `k` of the left operand at `(b, p, k)` times the right operand at `(b, k, q)`: entry `b` of the result depends on
  entry `b` of each operand only.
-/
import Idealize.ShloMosaic.PureOps.Ideal
import Idealize.ShloMosaic.PureOps.Ideal.Laws
import Idealize.ShloMosaic.Lib.ValueIdx
import proofs.«117813_g420906795687_cont_8to1_b_386_36_alg».proof.Proof.LibDotSum

noncomputable section

open scoped BigOperators

namespace Idealize.ShloMosaic.LibBatchMatmul

open Idealize.ShloMosaic Idealize.ShloMosaic.ValueIdx

/-- The contraction sum of a `[B, M, K] × [B, K, N]` batched product at `(b, p, q)`, over the contracted coordinate.
    The four facts about the free axes (the batch coordinate and the row of the left operand, the batch coordinate and
    the column of the right operand, are the result's) are read off a program's literal dimension numbers. -/
theorem contr_sum {B M K N : Nat} (D : DotDims ⟨3, ![B, M, K]⟩ ⟨3, ![B, K, N]⟩ ⟨3, ![B, M, N]⟩) (hr : D.contr.rank = 1)
    (hs : D.contr.size ⟨0, by omega⟩ = K) (hlc : D.lhsContracting = [2]) (hrc : D.rhsContracting = [1])
    (hl0 : ∀ j q, (D.lhsIdx j q 0).val = (j 0).val) (hl1 : ∀ j q, (D.lhsIdx j q 1).val = (j 1).val)
    (hr0 : ∀ j q, (D.rhsIdx j q 0).val = (j 0).val) (hr2 : ∀ j q, (D.rhsIdx j q 2).val = (j 2).val)
    (x : (⟨3, ![B, M, K]⟩ : Shape).Idx → EReal) (y : (⟨3, ![B, K, N]⟩ : Shape).Idx → EReal)
    (b : Fin B) (p : Fin M) (q : Fin N) :
    ∑ c : D.contr.Idx, x (D.lhsIdx (ix3 b p q) c) * y (D.rhsIdx (ix3 b p q) c)
      = ∑ k : Fin K, x (ix3 b p k) * y (ix3 b k q) := by
  refine LibDotSum.sum_single D K hr hs x y (ix3 b p q) (fun k => x (ix3 b p k)) (fun k => y (ix3 b k q))
    (fun k => ?_) (fun k => ?_)
  · refine congrArg x (funext fun a => Fin.ext ?_)
    match a with
    | ⟨0, _⟩ => exact hl0 _ _
    | ⟨1, _⟩ => exact hl1 _ _
    | ⟨2, _⟩ => exact LibDotSum.lhs_contr_val D K hr hs hlc _ k
  · refine congrArg y (funext fun a => Fin.ext ?_)
    match a with
    | ⟨0, _⟩ => exact hr0 _ _
    | ⟨1, _⟩ => exact LibDotSum.rhs_contr_val D K hr hs hrc _ k
    | ⟨2, _⟩ => exact hr2 _ _

/-- A kernel's batched matrix product into a zero accumulator, at `(b, p, q)`. -/
theorem matmul_zero_apply {B M K N : Nat} {φ₁ φ₂ : FTy} (D : DotDims ⟨3, ![B, M, K]⟩ ⟨3, ![B, K, N]⟩ ⟨3, ![B, M, N]⟩)
    (hr : D.contr.rank = 1) (hs : D.contr.size ⟨0, by omega⟩ = K) (hlc : D.lhsContracting = [2]) (hrc : D.rhsContracting = [1])
    (hl0 : ∀ j q, (D.lhsIdx j q 0).val = (j 0).val) (hl1 : ∀ j q, (D.lhsIdx j q 1).val = (j 1).val)
    (hr0 : ∀ j q, (D.rhsIdx j q 0).val = (j 0).val) (hr2 : ∀ j q, (D.rhsIdx j q 2).val = (j 2).val)
    (prec : Option ContractPrecision) (x : FVec Ideal ⟨3, ![B, M, K]⟩ φ₁) (y : FVec Ideal ⟨3, ![B, K, N]⟩ φ₂)
    (b : Fin B) (p : Fin M) (q : Fin N) :
    FloatOps.matmul D prec x y (constant ⟨3, ![B, M, N]⟩ .f32 0x00000000#32) (ix3 b p q)
      = ∑ k : Fin K, x (ix3 b p k) * y (ix3 b k q) :=
  (Ideal.matmul_constant_zero_apply D prec x y (ix3 b p q)).trans
    (contr_sum D hr hs hlc hrc hl0 hl1 hr0 hr2 x y b p q)

/-- The host's batched `dot_general` of the same shape, at `(b, p, q)`. -/
theorem dotGeneral_apply {B M K N : Nat} {φ₁ φ₂ : FTy} (D : DotDims ⟨3, ![B, M, K]⟩ ⟨3, ![B, K, N]⟩ ⟨3, ![B, M, N]⟩)
    (hr : D.contr.rank = 1) (hs : D.contr.size ⟨0, by omega⟩ = K) (hlc : D.lhsContracting = [2]) (hrc : D.rhsContracting = [1])
    (hl0 : ∀ j q, (D.lhsIdx j q 0).val = (j 0).val) (hl1 : ∀ j q, (D.lhsIdx j q 1).val = (j 1).val)
    (hr0 : ∀ j q, (D.rhsIdx j q 0).val = (j 0).val) (hr2 : ∀ j q, (D.rhsIdx j q 2).val = (j 2).val)
    (prec : Option ContractPrecision) (x : FVec Ideal ⟨3, ![B, M, K]⟩ φ₁) (y : FVec Ideal ⟨3, ![B, K, N]⟩ φ₂)
    (b : Fin B) (p : Fin M) (q : Fin N) :
    Host.dotGeneral D prec x y (ix3 b p q) = ∑ k : Fin K, x (ix3 b p k) * y (ix3 b k q) := by
  simp only [Host.dotGeneral]
  rw [Ideal.dotGeneral_apply]
  exact contr_sum D hr hs hlc hrc hl0 hl1 hr0 hr2 x y b p q

end Idealize.ShloMosaic.LibBatchMatmul

end
-- ==== Proof.LibFlatten.lean ====
/-
  Two leading axes merged into one, and one leading axis split in two.

  A shape cast keeps the row-major order of the entries. So an `[A, B, C]` array cast to `[N, C]` (`N = A · B`) has, in
  row `p · B + n`, the row `(p, n)` of the operand, and the cast back reads the same entries the other way round.
  The row index `r` is a variable with the equation `r = p · B + n`, so that the lemmas apply whatever way a program's
  text spells the merged extent.
-/
import Idealize.ShloMosaic.Lib.Pipeline.Value
import Idealize.ShloMosaic.Lib.ValueIdx

namespace Idealize.ShloMosaic.LibFlatten

open Idealize.ShloMosaic Idealize.ShloMosaic.ValueIdx

variable {α : Type}

/-- An `[A, B, C]` array cast to `[N, C]` reads, at `(r, k)` with `r = p · B + n`, the operand at `(p, n, k)`. -/
theorem merge_apply {A B C N : ℕ} (v : (⟨3, ![A, B, C]⟩ : Shape).Idx → α)
    (h : (⟨3, ![A, B, C]⟩ : Shape).ShapeCasts ⟨2, ![N, C]⟩) (p : Fin A) (n : Fin B) (k : Fin C) (r : Fin N)
    (hr : r.val = p.val * B + n.val) : shapeCast ⟨2, ![N, C]⟩ v h (ix2 r k) = v (ix3 p n k) :=
  shapeCast_apply v h _ _ (by
    rw [Shape.rowMajor_val_three, Shape.rowMajor_val_two]
    show (p.val * B + n.val) * C + k.val = r.val * C + k.val
    rw [hr])

/-- An `[N, C]` array cast to `[A, B, C]` reads, at `(p, n, k)`, the operand at `(r, k)` with `r = p · B + n`. -/
theorem split_apply {A B C N : ℕ} (v : (⟨2, ![N, C]⟩ : Shape).Idx → α)
    (h : (⟨2, ![N, C]⟩ : Shape).ShapeCasts ⟨3, ![A, B, C]⟩) (p : Fin A) (n : Fin B) (k : Fin C) (r : Fin N)
    (hr : r.val = p.val * B + n.val) : shapeCast ⟨3, ![A, B, C]⟩ v h (ix3 p n k) = v (ix2 r k) :=
  shapeCast_apply v h _ _ (by
    rw [Shape.rowMajor_val_three, Shape.rowMajor_val_two]
    show r.val * C + k.val = (p.val * B + n.val) * C + k.val
    rw [hr])

end Idealize.ShloMosaic.LibFlatten
-- ==== Proof.KernelValue.lean ====
/-
  What the kernel's body stores, read at an entry.

  At one grid point the body holds a block of 16 graphs: their edge weights as a `[16, 512, 128]` block (each graph's
  `256 × 256` weights laid out in 512 rows of 128), their node features as a `[16, 256, 128]` block, and the weight
  matrices and bias vectors whole. It re-lays the edge weights as `[16, 256, 256]`, runs the three layers — the
  aggregation as one batched product over the 16 graphs, the node update as one product over all `16 · 256` nodes at
  once, with the node features re-laid between `[16, 256, ·]` and `[4096, ·]` — then sums over the nodes and applies the
  readout. Every re-laying keeps the row-major order, so node `n` of graph `p` is row `p · 256 + n` of the merged form
  and nothing is ever mixed between graphs: the stored value at `(p, o)` is output `o` of the network of graph `p`
  (`payload_apply`).

  Each group of the body's operations is named here as a function of vectors (`adjV`, `pre128`, `pre256`, `biasRows`,
  `relu256`, `outV`), read at an entry once, and the body's value is their composition.
-/
import proofs.«117813_g420906795687_cont_8to1_b_386_36_alg».proof.Proof.Gen.KernelIdeal.Skeleton
import proofs.«117813_g420906795687_cont_8to1_b_386_36_alg».proof.Proof.Net
import proofs.«117813_g420906795687_cont_8to1_b_386_36_alg».proof.Proof.LibMatmul2
import proofs.«117813_g420906795687_cont_8to1_b_386_36_alg».proof.Proof.LibBatchMatmul
import proofs.«117813_g420906795687_cont_8to1_b_386_36_alg».proof.Proof.LibFlatten
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx
open Cert.Gin (z)

/-- Node `n` of graph `p` of the block, as a row of the merged `[4096, ·]` form. -/
def row (p : Fin 16) (n : Fin 256) : Fin 4096 :=
  ⟨p.val * 256 + n.val, by have := p.isLt; have := n.isLt; omega⟩

/-- Edge weight `(n, j)` of a graph sits in row `2 n + j / 128` … -/
def hi (n j : Fin 256) : Fin 512 :=
  ⟨2 * n.val + j.val / 128, by have := n.isLt; have := j.isLt; omega⟩

/-- … and column `j mod 128` of the graph's `512 × 128` layout. -/
def lo (j : Fin 256) : Fin 128 := ⟨j.val % 128, Nat.mod_lt _ (by decide)⟩

/-! ## The dimension numbers of the five products -/

theorem dB128_l0 (i : S16x256x128.Idx) (q : dot_S16x256x256_S16x256x128_S16x256x128_2_1_1_2_0_0.contr.Idx) : (dot_S16x256x256_S16x256x128_S16x256x128_2_1_1_2_0_0.lhsIdx i q 0).val = (i 0).val := by
  unfold DotDims.lhsIdx
  rw [dif_pos (show (0 : Fin S16x256x256.rank) ∈ dot_S16x256x256_S16x256x128_S16x256x128_2_1_1_2_0_0.lhsBatch by decide)]
  rfl
theorem dB128_l1 (i : S16x256x128.Idx) (q : dot_S16x256x256_S16x256x128_S16x256x128_2_1_1_2_0_0.contr.Idx) : (dot_S16x256x256_S16x256x128_S16x256x128_2_1_1_2_0_0.lhsIdx i q 1).val = (i 1).val := by
  unfold DotDims.lhsIdx
  rw [dif_neg (show ¬(1 : Fin S16x256x256.rank) ∈ dot_S16x256x256_S16x256x128_S16x256x128_2_1_1_2_0_0.lhsBatch by decide), dif_pos (show (1 : Fin S16x256x256.rank) ∈ dot_S16x256x256_S16x256x128_S16x256x128_2_1_1_2_0_0.lhsNonContracting by decide)]
  rfl
theorem dB128_r0 (i : S16x256x128.Idx) (q : dot_S16x256x256_S16x256x128_S16x256x128_2_1_1_2_0_0.contr.Idx) : (dot_S16x256x256_S16x256x128_S16x256x128_2_1_1_2_0_0.rhsIdx i q 0).val = (i 0).val := by
  unfold DotDims.rhsIdx
  rw [dif_pos (show (0 : Fin S16x256x128.rank) ∈ dot_S16x256x256_S16x256x128_S16x256x128_2_1_1_2_0_0.rhsBatch by decide)]
  rfl
theorem dB128_r2 (i : S16x256x128.Idx) (q : dot_S16x256x256_S16x256x128_S16x256x128_2_1_1_2_0_0.contr.Idx) : (dot_S16x256x256_S16x256x128_S16x256x128_2_1_1_2_0_0.rhsIdx i q 2).val = (i 2).val := by
  unfold DotDims.rhsIdx
  rw [dif_neg (show ¬(2 : Fin S16x256x128.rank) ∈ dot_S16x256x256_S16x256x128_S16x256x128_2_1_1_2_0_0.rhsBatch by decide), dif_pos (show (2 : Fin S16x256x128.rank) ∈ dot_S16x256x256_S16x256x128_S16x256x128_2_1_1_2_0_0.rhsNonContracting by decide)]
  rfl

theorem dB256_l0 (i : S16x256x256.Idx) (q : dot_S16x256x256_S16x256x256_S16x256x256_2_1_1_2_0_0.contr.Idx) : (dot_S16x256x256_S16x256x256_S16x256x256_2_1_1_2_0_0.lhsIdx i q 0).val = (i 0).val := by
  unfold DotDims.lhsIdx
  rw [dif_pos (show (0 : Fin S16x256x256.rank) ∈ dot_S16x256x256_S16x256x256_S16x256x256_2_1_1_2_0_0.lhsBatch by decide)]
  rfl
theorem dB256_l1 (i : S16x256x256.Idx) (q : dot_S16x256x256_S16x256x256_S16x256x256_2_1_1_2_0_0.contr.Idx) : (dot_S16x256x256_S16x256x256_S16x256x256_2_1_1_2_0_0.lhsIdx i q 1).val = (i 1).val := by
  unfold DotDims.lhsIdx
  rw [dif_neg (show ¬(1 : Fin S16x256x256.rank) ∈ dot_S16x256x256_S16x256x256_S16x256x256_2_1_1_2_0_0.lhsBatch by decide), dif_pos (show (1 : Fin S16x256x256.rank) ∈ dot_S16x256x256_S16x256x256_S16x256x256_2_1_1_2_0_0.lhsNonContracting by decide)]
  rfl
theorem dB256_r0 (i : S16x256x256.Idx) (q : dot_S16x256x256_S16x256x256_S16x256x256_2_1_1_2_0_0.contr.Idx) : (dot_S16x256x256_S16x256x256_S16x256x256_2_1_1_2_0_0.rhsIdx i q 0).val = (i 0).val := by
  unfold DotDims.rhsIdx
  rw [dif_pos (show (0 : Fin S16x256x256.rank) ∈ dot_S16x256x256_S16x256x256_S16x256x256_2_1_1_2_0_0.rhsBatch by decide)]
  rfl
theorem dB256_r2 (i : S16x256x256.Idx) (q : dot_S16x256x256_S16x256x256_S16x256x256_2_1_1_2_0_0.contr.Idx) : (dot_S16x256x256_S16x256x256_S16x256x256_2_1_1_2_0_0.rhsIdx i q 2).val = (i 2).val := by
  unfold DotDims.rhsIdx
  rw [dif_neg (show ¬(2 : Fin S16x256x256.rank) ∈ dot_S16x256x256_S16x256x256_S16x256x256_2_1_1_2_0_0.rhsBatch by decide), dif_pos (show (2 : Fin S16x256x256.rank) ∈ dot_S16x256x256_S16x256x256_S16x256x256_2_1_1_2_0_0.rhsNonContracting by decide)]
  rfl

theorem dL128_l0 (i : S4096x256.Idx) (q : dot_S4096x128_S128x256_S4096x256_1_0_0_1_n_n.contr.Idx) : (dot_S4096x128_S128x256_S4096x256_1_0_0_1_n_n.lhsIdx i q 0).val = (i 0).val := by
  unfold DotDims.lhsIdx
  rw [dif_neg (show ¬(0 : Fin S4096x128.rank) ∈ dot_S4096x128_S128x256_S4096x256_1_0_0_1_n_n.lhsBatch by decide), dif_pos (show (0 : Fin S4096x128.rank) ∈ dot_S4096x128_S128x256_S4096x256_1_0_0_1_n_n.lhsNonContracting by decide)]
  rfl
theorem dL128_r1 (i : S4096x256.Idx) (q : dot_S4096x128_S128x256_S4096x256_1_0_0_1_n_n.contr.Idx) : (dot_S4096x128_S128x256_S4096x256_1_0_0_1_n_n.rhsIdx i q 1).val = (i 1).val := by
  unfold DotDims.rhsIdx
  rw [dif_neg (show ¬(1 : Fin S128x256.rank) ∈ dot_S4096x128_S128x256_S4096x256_1_0_0_1_n_n.rhsBatch by decide), dif_pos (show (1 : Fin S128x256.rank) ∈ dot_S4096x128_S128x256_S4096x256_1_0_0_1_n_n.rhsNonContracting by decide)]
  rfl

theorem dL256_l0 (i : S4096x256.Idx) (q : dot_S4096x256_S256x256_S4096x256_1_0_0_1_n_n.contr.Idx) : (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem dL256_r1 (i : S4096x256.Idx) (q : dot_S4096x256_S256x256_S4096x256_1_0_0_1_n_n.contr.Idx) : (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

theorem dO_l0 (i : S16x128.Idx) (q : dot_S16x256_S256x128_S16x128_1_0_0_1_n_n.contr.Idx) : (dot_S16x256_S256x128_S16x128_1_0_0_1_n_n.lhsIdx i q 0).val = (i 0).val := by
  unfold DotDims.lhsIdx
  rw [dif_neg (show ¬(0 : Fin S16x256.rank) ∈ dot_S16x256_S256x128_S16x128_1_0_0_1_n_n.lhsBatch by decide), dif_pos (show (0 : Fin S16x256.rank) ∈ dot_S16x256_S256x128_S16x128_1_0_0_1_n_n.lhsNonContracting by decide)]
  rfl
theorem dO_r1 (i : S16x128.Idx) (q : dot_S16x256_S256x128_S16x128_1_0_0_1_n_n.contr.Idx) : (dot_S16x256_S256x128_S16x128_1_0_0_1_n_n.rhsIdx i q 1).val = (i 1).val := by
  unfold DotDims.rhsIdx
  rw [dif_neg (show ¬(1 : Fin S256x128.rank) ∈ dot_S16x256_S256x128_S16x128_1_0_0_1_n_n.rhsBatch by decide), dif_pos (show (1 : Fin S256x128.rank) ∈ dot_S16x256_S256x128_S16x128_1_0_0_1_n_n.rhsNonContracting by decide)]
  rfl

/-! ## The groups of operations, each read at an entry -/

/-- The block's edge weights re-laid as `[16, 256, 256]`. -/
def adjV (x0 : FVec Ideal S16x512x128 .f32) : FVec Ideal S16x256x256 .f32 :=
  shapeCast S16x256x256 (shapeCast S16x512x128 x0 shapeCasts_S16x512x128_S16x512x128) shapeCasts_S16x512x128_S16x256x256

/-- Weight `(n, j)` of graph `p` is the block's entry `(p, 2 n + j / 128, j mod 128)`: both sit at row-major position
    `(p · 256 + n) · 256 + j`. -/
theorem adjV_apply (x0 : FVec Ideal S16x512x128 .f32) (p : Fin 16) (n j : Fin 256) :
    adjV x0 (ix3 p n j) = x0 (ix3 p (hi n j) (lo j)) := by
  unfold adjV
  rw [shapeCast_self]
  exact shapeCast_apply x0 shapeCasts_S16x512x128_S16x256x256 (ix3 p n j) (ix3 p (hi n j) (lo j)) (by
    rw [Shape.rowMajor_val_three, Shape.rowMajor_val_three]
    show (p.val * 512 + (2 * n.val + j.val / 128)) * 128 + j.val % 128 = (p.val * 256 + n.val) * 256 + j.val
    have := j.isLt; omega)

/-- The first layer up to its bias: aggregation over the 16 graphs, then the product with the weights over all nodes. -/
def pre128 (A : FVec Ideal S16x256x256 .f32) (h : FVec Ideal S16x256x128 .f32) (W : FVec Ideal S128x256 .f32) :
    FVec Ideal S4096x256 .f32 :=
  matmul dot_S4096x128_S128x256_S4096x256_1_0_0_1_n_n none
    (shapeCast S4096x128 (addf (matmul dot_S16x256x256_S16x256x128_S16x256x128_2_1_1_2_0_0 none A h (constant S16x256x128 .f32 0x00000000#32)) h)
      shapeCasts_S16x256x128_S4096x128) W (constant S4096x256 .f32 0x00000000#32)

theorem pre128_apply (A : FVec Ideal S16x256x256 .f32) (h : FVec Ideal S16x256x128 .f32) (W : FVec Ideal S128x256 .f32)
    (p : Fin 16) (n f : Fin 256) :
    pre128 A h W (ix2 (row p n) f)
      = ∑ k : Fin 128, ((∑ j : Fin 256, A (ix3 p n j) * h (ix3 p j k)) + h (ix3 p n k)) * W (ix2 k f) := by
  unfold pre128
  refine (LibMatmul2.matmul_zero_apply dot_S4096x128_S128x256_S4096x256_1_0_0_1_n_n rfl rfl rfl rfl dL128_l0 dL128_r1 none _ W (row p n) f).trans ?_
  refine Finset.sum_congr rfl fun k _ => congrArg (· * W (ix2 k f)) ?_
  refine (LibFlatten.merge_apply _ shapeCasts_S16x256x128_S4096x128 p n k (row p n) rfl).trans ?_
  exact congrArg (· + h (ix3 p n k))
    (LibBatchMatmul.matmul_zero_apply dot_S16x256x256_S16x256x128_S16x256x128_2_1_1_2_0_0 rfl rfl rfl rfl dB128_l0 dB128_l1 dB128_r0 dB128_r2 none A h p n k)

/-- A later layer up to its bias, from 256 features. -/
def pre256 (A : FVec Ideal S16x256x256 .f32) (h : FVec Ideal S16x256x256 .f32) (W : FVec Ideal S256x256 .f32) :
    FVec Ideal S4096x256 .f32 :=
  matmul dot_S4096x256_S256x256_S4096x256_1_0_0_1_n_n none
    (shapeCast S4096x256 (addf (matmul dot_S16x256x256_S16x256x256_S16x256x256_2_1_1_2_0_0 none A h (constant S16x256x256 .f32 0x00000000#32)) h)
      shapeCasts_S16x256x256_S4096x256) W (constant S4096x256 .f32 0x00000000#32)

theorem pre256_apply (A : FVec Ideal S16x256x256 .f32) (h : FVec Ideal S16x256x256 .f32) (W : FVec Ideal S256x256 .f32)
    (p : Fin 16) (n f : Fin 256) :
    pre256 A h W (ix2 (row p n) f)
      = ∑ k : Fin 256, ((∑ j : Fin 256, A (ix3 p n j) * h (ix3 p j k)) + h (ix3 p n k)) * W (ix2 k f) := by
  unfold pre256
  refine (LibMatmul2.matmul_zero_apply dot_S4096x256_S256x256_S4096x256_1_0_0_1_n_n rfl rfl rfl rfl dL256_l0 dL256_r1 none _ W (row p n) f).trans ?_
  refine Finset.sum_congr rfl fun k _ => congrArg (· * W (ix2 k f)) ?_
  refine (LibFlatten.merge_apply _ shapeCasts_S16x256x256_S4096x256 p n k (row p n) rfl).trans ?_
  exact congrArg (· + h (ix3 p n k))
    (LibBatchMatmul.matmul_zero_apply dot_S16x256x256_S16x256x256_S16x256x256_2_1_1_2_0_0 rfl rfl rfl rfl dB256_l0 dB256_l1 dB256_r0 dB256_r2 none A h p n k)

/-- A bias vector repeated on every one of the 4096 node rows. -/
def biasRows (c : FVec Ideal S256 .f32) : FVec Ideal S4096x256 .f32 :=
  broadcastTo S4096x256 (shapeCast S1x256 c shapeCasts_S256_S1x256) broadcasts_S1x256_S4096x256

theorem biasRows_apply (c : FVec Ideal S256 .f32) (r : Fin 4096) (f : Fin 256) : biasRows c (ix2 r f) = c (ix1 f) := by
  unfold biasRows
  exact (broadcastTo_1b_ab_apply _ broadcasts_S1x256_S4096x256 r f).trans
    (shapeCast_a_1a_apply c shapeCasts_S256_S1x256 0 f)

/-- Bias, positive part, and the node rows split back into graphs. -/
def relu256 (pre bias : FVec Ideal S4096x256 .f32) : FVec Ideal S16x256x256 .f32 :=
  shapeCast S16x256x256 (maximumf (addf pre bias) (broadcast S4096x256 (Scalar.ofBits .f32 0x00000000#32)))
    shapeCasts_S4096x256_S16x256x256

theorem relu256_apply (pre bias : FVec Ideal S4096x256 .f32) (p : Fin 16) (n f : Fin 256) :
    relu256 pre bias (ix3 p n f) = max (pre (ix2 (row p n) f) + bias (ix2 (row p n) f)) z := by
  unfold relu256
  exact (LibFlatten.split_apply _ shapeCasts_S4096x256_S16x256x256 p n f (row p n) rfl).trans rfl

/-- The sum over the nodes of a graph, at Ideal: the sum over `n` of the entries `(p, n, f)`. -/
theorem pool_apply (h : FVec Ideal S16x256x256 .f32) (hacc : (0x00000000#32 : BitVec 32) = 0x00000000#32)
    (p : Fin 16) (f : Fin 256) :
    multiReduction .add [1] S16x256 h 0x00000000#32 reduces_S16x256x256_S16x256 (.inl rfl) hacc (ix2 p f)
      = ∑ n : Fin 256, h (ix3 p n f) := by
  refine (Ideal.multiReduction_add_single h 0x00000000#32 reduces_S16x256x256_S16x256 (.inl rfl) hacc (ix2 p f)).trans ?_
  refine Finset.sum_congr rfl fun n _ => congrArg h (funext fun a => Fin.ext ?_)
  match a with
  | ⟨0, _⟩ => rfl
  | ⟨1, _⟩ => rfl
  | ⟨2, _⟩ => rfl

/-- The sum over the nodes and the readout. -/
def outV (h : FVec Ideal S16x256x256 .f32) (W : FVec Ideal S256x128 .f32) (c : FVec Ideal S128 .f32) : FVec Ideal S16x128 .f32 :=
  addf (matmul dot_S16x256_S256x128_S16x128_1_0_0_1_n_n none
      (multiReduction .add [1] S16x256 h 0x00000000#32 reduces_S16x256x256_S16x256 (.inl rfl) rfl) W
      (constant S16x128 .f32 0x00000000#32))
    (broadcastTo S16x128 (shapeCast S1x128 c shapeCasts_S128_S1x128) broadcasts_S1x128_S16x128)

theorem outV_apply (h : FVec Ideal S16x256x256 .f32) (W : FVec Ideal S256x128 .f32) (c : FVec Ideal S128 .f32)
    (p : Fin 16) (o : Fin 128) :
    outV h W c (ix2 p o) = (∑ f : Fin 256, (∑ n : Fin 256, h (ix3 p n f)) * W (ix2 f o)) + c (ix1 o) := by
  unfold outV
  refine congrArg₂ (· + ·) ?_ ?_
  · refine (LibMatmul2.matmul_zero_apply dot_S16x256_S256x128_S16x128_1_0_0_1_n_n rfl rfl rfl rfl dO_l0 dO_r1 none _ W p o).trans ?_
    exact Finset.sum_congr rfl fun f _ => congrArg (· * W (ix2 f o)) (pool_apply h rfl p f)
  · exact (broadcastTo_1b_ab_apply _ broadcasts_S1x128_S16x128 p o).trans
      (shapeCast_a_1a_apply c shapeCasts_S128_S1x128 0 o)

/-! ## The body's value is the composition of the groups -/

theorem pay2_eq (x0 : FVec Ideal S16x512x128 .f32) (x1 : FVec Ideal S16x256x128 .f32) (x2 : FVec Ideal S128x256 .f32)
    (x3 : FVec Ideal S256 .f32) (x4 : FVec Ideal S256x256 .f32) (x5 : FVec Ideal S256 .f32) (x6 : FVec Ideal S256x256 .f32) :
    k0_pay2 (F := Ideal) x0 x1 x2 x3 x4 x5 x6
      = pre256 (adjV x0) (relu256 (pre256 (adjV x0) (relu256 (pre128 (adjV x0) x1 x2) (biasRows x3)) x4) (biasRows x5)) x6 :=
  rfl

theorem pay3_eq (x7 : FVec Ideal S256 .f32) : k0_pay3 (F := Ideal) x7 = biasRows x7 := rfl

theorem pay1_eq (v32 v35 : FVec Ideal S4096x256 .f32) (x8 : FVec Ideal S256x128 .f32) (x9 : FVec Ideal S128 .f32) :
    k0_pay1 (F := Ideal) v32 v35 x8 x9 = outV (relu256 v32 v35) x8 x9 := rfl

/-! ## One layer on the block is the layer of each of its graphs -/

/-- The edge weights of graph `p` of the block, from the block's `[16, 512, 128]` layout. -/
def adjK (x0 : FVec Ideal S16x512x128 .f32) (p : Fin 16) : Fin 256 → Fin 256 → EReal :=
  fun n j => x0 (ix3 p (hi n j) (lo j))

/-- The first layer: entry `(p, n, f)` is the layer of graph `p` at node `n`, feature `f`. -/
theorem layer128_spec (A : FVec Ideal S16x256x256 .f32) (h : FVec Ideal S16x256x128 .f32) (W : FVec Ideal S128x256 .f32)
    (c : FVec Ideal S256 .f32) (p : Fin 16) (a : Fin 256 → Fin 256 → EReal) (hA : ∀ n j, A (ix3 p n j) = a n j)
    (n f : Fin 256) :
    relu256 (pre128 A h W) (biasRows c) (ix3 p n f) = Gin.layer z a (Gin.slab h p) (Gin.mat W) (Gin.vec c) n f := by
  rw [relu256_apply, pre128_apply, biasRows_apply]
  simp only [hA]
  rfl

/-- A later layer, its input known entry by entry. -/
theorem layer256_spec (A : FVec Ideal S16x256x256 .f32) (h : FVec Ideal S16x256x256 .f32) (W : FVec Ideal S256x256 .f32)
    (c : FVec Ideal S256 .f32) (p : Fin 16) (a : Fin 256 → Fin 256 → EReal) (hs : Fin 256 → Fin 256 → EReal)
    (hA : ∀ n j, A (ix3 p n j) = a n j) (hh : ∀ n k, h (ix3 p n k) = hs n k) (n f : Fin 256) :
    relu256 (pre256 A h W) (biasRows c) (ix3 p n f) = Gin.layer z a hs (Gin.mat W) (Gin.vec c) n f := by
  rw [relu256_apply, pre256_apply, biasRows_apply]
  simp only [hA, hh]
  rfl

/-- THE BODY'S VALUE: what is stored at `(p, o)` is output `o` of the network of graph `p` of the block. -/
theorem payload_apply (x0 : FVec Ideal S16x512x128 .f32) (x1 : FVec Ideal S16x256x128 .f32) (x2 : FVec Ideal S128x256 .f32)
    (x3 : FVec Ideal S256 .f32) (x4 : FVec Ideal S256x256 .f32) (x5 : FVec Ideal S256 .f32) (x6 : FVec Ideal S256x256 .f32)
    (x7 : FVec Ideal S256 .f32) (x8 : FVec Ideal S256x128 .f32) (x9 : FVec Ideal S128 .f32) (p : Fin 16) (o : Fin 128) :
    k0_pay1 (F := Ideal) (k0_pay2 x0 x1 x2 x3 x4 x5 x6) (k0_pay3 x7) x8 x9 (ix2 p o)
      = Gin.net z (adjK x0 p) (Gin.slab x1 p) (Gin.mat x2) (Gin.vec x3) (Gin.mat x4) (Gin.vec x5) (Gin.mat x6) (Gin.vec x7)
          (Gin.mat x8) (Gin.vec x9) o := by
  rw [pay2_eq, pay3_eq, pay1_eq, outV_apply]
  have hA : ∀ n j, adjV x0 (ix3 p n j) = adjK x0 p n j := fun n j => adjV_apply x0 p n j
  have h1 := fun n f => layer128_spec (adjV x0) x1 x2 x3 p (adjK x0 p) hA n f
  have h2 := fun n f => layer256_spec (adjV x0) _ x4 x5 p (adjK x0 p) _ hA h1 n f
  have h3 := fun n f => layer256_spec (adjV x0) _ x6 x7 p (adjK x0 p) _ hA h2 n f
  simp only [h3]
  rfl

end Cert.KernelIdeal.Body

end
-- ==== Proof.Blocks.lean ====
/-
  From the blocks to the whole result array, and the kernel program's run.

  The grid has four points; point `t` is handed the edge weights and node features of the graphs `16 t … 16 t + 15` and
  the matrices and bias vectors whole, and writes back rows `16 t … 16 t + 15` of the `[64, 128]` result. The edge
  weights reach the kernel through a host reshape of the `[64, 256, 256, 1]` argument to `[64, 512, 128]`, which keeps the
  row-major order, so graph `p` of block `t` finds its weight `(n, j)` at the argument's entry `(16 t + p, n, j, 0)`.
  Hence what point `t` writes back is block `t` of `Gin.G` of the argument arrays (`flushed_eq`); the four blocks cover
  the result (row `r` is in block `r / 16`), so after the run the result array IS `Gin.G` of the arguments (`final`).
  The program's second result is the constant the host writes after the region, and the arguments end unchanged (`run`).
-/
import proofs.«117813_g420906795687_cont_8to1_b_386_36_alg».proof.Proof.Gen.KernelIdeal.Frame
import proofs.«117813_g420906795687_cont_8to1_b_386_36_alg».proof.Proof.KernelValue
import proofs.«117813_g420906795687_cont_8to1_b_386_36_alg».proof.Proof.Whole
import Idealize.ShloMosaic.Lib.Pipeline.Value
import Idealize.ShloMosaic.Lib.StableHlo.Run
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The body's buffer, entry by entry -/

/-- The one store covers the output buffer and every load reads a whole block, so the buffer after the body at `(p, o)` is
    the stored value there: output `o` of the network of graph `p` of the block. -/
theorem out_spec (x0 : Vec Ideal S16x512x128 .f32) (x1 : Vec Ideal S16x256x128 .f32) (x2 : Vec Ideal S128x256 .f32) (x3 : Vec Ideal S256 .f32) (x4 : Vec Ideal S256x256 .f32) (x5 : Vec Ideal S256 .f32) (x6 : Vec Ideal S256x256 .f32) (x7 : Vec Ideal S256 .f32) (x8 : Vec Ideal S256x128 .f32) (x9 : Vec Ideal S128 .f32) (p : Fin 16) (o : Fin 128) :
    out0_10 (F := Ideal) x0 x1 x2 x3 x4 x5 x6 x7 x8 x9 (ix2 p o)
      = Gin.net Gin.z (Body.adjK x0 p) (Gin.slab x1 p) (Gin.mat x2) (Gin.vec x3) (Gin.mat x4) (Gin.vec x5) (Gin.mat x6)
          (Gin.vec x7) (Gin.mat x8) (Gin.vec x9) o := by
  unfold out0_10
  rw [View.canon_unit_zero hz2]
  simp only [View.ld_unit_zero (S := S16x512x128) hz3, View.ld_unit_zero (S := S16x256x128) hz3,
    View.ld_unit_zero (S := S128x256) hz2, View.ld_unit_zero (S := S256) hz1, View.ld_unit_zero (S := S256x256) hz2,
    View.ld_unit_zero (S := S256x128) hz2, View.ld_unit_zero (S := S128) hz1]
  exact Body.payload_apply x0 x1 x2 x3 x4 x5 x6 x7 x8 x9 p o

/-- The same at any index of the buffer. -/
theorem out_spec' (x0 : Vec Ideal S16x512x128 .f32) (x1 : Vec Ideal S16x256x128 .f32) (x2 : Vec Ideal S128x256 .f32) (x3 : Vec Ideal S256 .f32) (x4 : Vec Ideal S256x256 .f32) (x5 : Vec Ideal S256 .f32) (x6 : Vec Ideal S256x256 .f32) (x7 : Vec Ideal S256 .f32) (x8 : Vec Ideal S256x128 .f32) (x9 : Vec Ideal S128 .f32) (y : S16x128.Idx) :
    out0_10 (F := Ideal) x0 x1 x2 x3 x4 x5 x6 x7 x8 x9 y
      = Gin.net Gin.z (Body.adjK x0 (y 0)) (Gin.slab x1 (y 0)) (Gin.mat x2) (Gin.vec x3) (Gin.mat x4) (Gin.vec x5) (Gin.mat x6)
          (Gin.vec x7) (Gin.mat x8) (Gin.vec x9) (y 1) := by
  obtain ⟨p, o, rfl⟩ : ∃ (p : Fin 16) (o : Fin 128), y = ix2 p o := ⟨y 0, y 1, eq_ix2 y⟩
  exact out_spec x0 x1 x2 x3 x4 x5 x6 x7 x8 x9 p o

/-! ## Where each window's block sits -/

/-- The three windows that move with the grid take block `t` along the leading axis, at point `t`. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_10.index t (0 : Fin 2) = t.val ∧ win0_10.index t (1 : Fin 2) = 0 :=
  (by decide +kernel : ∀ t : Fin grid0.N, _)

/-- The matrices and bias vectors are one block each, at every point. -/
theorem idx_const : ∀ t : Fin cfg0.N,
    win0_2.index t (0 : Fin 2) = 0 ∧ win0_2.index t (1 : Fin 2) = 0 ∧ win0_3.index t (0 : Fin 1) = 0
    ∧ win0_4.index t (0 : Fin 2) = 0 ∧ win0_4.index t (1 : Fin 2) = 0 ∧ win0_5.index t (0 : Fin 1) = 0
    ∧ win0_6.index t (0 : Fin 2) = 0 ∧ win0_6.index t (1 : Fin 2) = 0 ∧ win0_7.index t (0 : Fin 1) = 0
    ∧ win0_8.index t (0 : Fin 2) = 0 ∧ win0_8.index t (1 : Fin 2) = 0 ∧ win0_9.index t (0 : Fin 1) = 0 :=
  (by decide +kernel : ∀ t : Fin grid0.N, _)

/-- The edge-weight array the region finds is the host's reshape of the first argument. -/
theorem V_v0 (c : Dev nD) :
    (V m c main_v0 : S64x512x128.Idx → EReal)
      = shapeCast S64x512x128 (m ((c : Thread nD τ).loc main_arg0)) shapeCasts_S64x256x256x1_S64x512x128 := by
  show StableHlo.after hostOps0 (fun b => m (c, b)) (Proc.devRef .tc main_v0) = _
  after_results
  rfl

/-! ## Each input block is the matching piece of its argument array -/

/-- Graph `p` of block `t` has the edge weights of graph `16 t + p`. -/
theorem blk0 (c : Dev nD) (t : Fin cfg0.N) (p : Fin 16) (g : Fin 64) (hg : g.val = t.val * 16 + p.val) :
    Body.adjK (iblk m c 0 t) p = Gin.adj (B := 64) (m ((c : Thread nD τ).loc main_arg0)) g := by
  funext n j
  show V m c main_v0 (((cfg0.win 0).blk t).view.emb (ix3 p (Body.hi n j) (Body.lo j))) = (m ((c : Thread nD τ).loc main_arg0)) (ix4 g n j (0 : Fin 1))
  have he : ((cfg0.win 0).blk t).view.emb (ix3 p (Body.hi n j) (Body.lo j)) = ix3 g (Body.hi n j) (Body.lo j) := by
    obtain ⟨e0, e1, e2, -⟩ := idx_facts t
    funext a; apply Fin.ext
    match a with
    | ⟨0, _⟩ => show win0_0.index t (0 : Fin 3) * 16 + 1 * p.val = g.val; omega
    | ⟨1, _⟩ => show win0_0.index t (1 : Fin 3) * 512 + 1 * (Body.hi n j).val = (Body.hi n j).val; omega
    | ⟨2, _⟩ => show win0_0.index t (2 : Fin 3) * 128 + 1 * (Body.lo j).val = (Body.lo j).val; omega
  rw [he, V_v0 m c]
  refine shapeCast_apply (m ((c : Thread nD τ).loc main_arg0)) shapeCasts_S64x256x256x1_S64x512x128 (ix3 g (Body.hi n j) (Body.lo j)) (ix4 g n j (0 : Fin 1)) ?_
  show (S64x256x256x1.rowMajor (ix4 g n j (0 : Fin 1))).val = (S64x512x128.rowMajor (ix3 g (Body.hi n j) (Body.lo j))).val
  rw [Shape.rowMajor_val_four, Shape.rowMajor_val_three]
  show ((g.val * 256 + n.val) * 256 + j.val) * 1 + 0 = (g.val * 512 + (2 * n.val + j.val / 128)) * 128 + j.val % 128
  have := j.isLt; omega

/-- … and its node features. -/
theorem blk1 (c : Dev nD) (t : Fin cfg0.N) (p : Fin 16) (g : Fin 64) (hg : g.val = t.val * 16 + p.val) :
    Gin.slab (B := 16) (a := 256) (b := 128) (iblk m c 1 t) p = Gin.slab (B := 64) (a := 256) (b := 128) (m ((c : Thread nD τ).loc main_arg1)) g := by
  funext n k
  show V m c main_arg1 (((cfg0.win 1).blk t).view.emb (ix3 p n k)) = (m ((c : Thread nD τ).loc main_arg1)) (ix3 g n k)
  rw [V_main_arg1]
  refine congrArg (m ((c : Thread nD τ).loc main_arg1)) (funext fun a => Fin.ext ?_)
  obtain ⟨-, -, -, e0, e1, e2, -⟩ := idx_facts t
  match a with
  | ⟨0, _⟩ => show win0_1.index t (0 : Fin 3) * 16 + 1 * p.val = g.val; omega
  | ⟨1, _⟩ => show win0_1.index t (1 : Fin 3) * 256 + 1 * n.val = n.val; omega
  | ⟨2, _⟩ => show win0_1.index t (2 : Fin 3) * 128 + 1 * k.val = k.val; omega

theorem blk2 (c : Dev nD) (t : Fin cfg0.N) :
    Gin.mat (a := 128) (b := 256) (iblk m c 2 t) = Gin.mat (a := 128) (b := 256) (m ((c : Thread nD τ).loc main_arg2)) := by
  funext r f
  show V m c main_arg2 (((cfg0.win 2).blk t).view.emb (ix2 r f)) = (m ((c : Thread nD τ).loc main_arg2)) (ix2 r f)
  rw [V_main_arg2]
  refine congrArg (m ((c : Thread nD τ).loc main_arg2)) (funext fun a => Fin.ext ?_)
  have e := idx_const t
  match a with
  | ⟨0, _⟩ => show win0_2.index t (0 : Fin 2) * 128 + 1 * r.val = r.val; have := e.1; omega
  | ⟨1, _⟩ => show win0_2.index t (1 : Fin 2) * 256 + 1 * f.val = f.val; have := e.2.1; omega

theorem blk3 (c : Dev nD) (t : Fin cfg0.N) :
    Gin.vec (a := 256) (iblk m c 3 t) = Gin.vec (a := 256) (m ((c : Thread nD τ).loc main_arg3)) := by
  funext f
  show V m c main_arg3 (((cfg0.win 3).blk t).view.emb (ix1 f)) = (m ((c : Thread nD τ).loc main_arg3)) (ix1 f)
  rw [V_main_arg3]
  refine congrArg (m ((c : Thread nD τ).loc main_arg3)) (funext fun a => Fin.ext ?_)
  have e := idx_const t
  match a with
  | ⟨0, _⟩ => show win0_3.index t (0 : Fin 1) * 256 + 1 * f.val = f.val; have := e.2.2.1; omega

theorem blk4 (c : Dev nD) (t : Fin cfg0.N) :
    Gin.mat (a := 256) (b := 256) (iblk m c 4 t) = Gin.mat (a := 256) (b := 256) (m ((c : Thread nD τ).loc main_arg4)) := by
  funext r f
  show V m c main_arg4 (((cfg0.win 4).blk t).view.emb (ix2 r f)) = (m ((c : Thread nD τ).loc main_arg4)) (ix2 r f)
  rw [V_main_arg4]
  refine congrArg (m ((c : Thread nD τ).loc main_arg4)) (funext fun a => Fin.ext ?_)
  have e := idx_const t
  match a with
  | ⟨0, _⟩ => show win0_4.index t (0 : Fin 2) * 256 + 1 * r.val = r.val; have := e.2.2.2.1; omega
  | ⟨1, _⟩ => show win0_4.index t (1 : Fin 2) * 256 + 1 * f.val = f.val; have := e.2.2.2.2.1; omega

theorem blk5 (c : Dev nD) (t : Fin cfg0.N) :
    Gin.vec (a := 256) (iblk m c 5 t) = Gin.vec (a := 256) (m ((c : Thread nD τ).loc main_arg5)) := by
  funext f
  show V m c main_arg5 (((cfg0.win 5).blk t).view.emb (ix1 f)) = (m ((c : Thread nD τ).loc main_arg5)) (ix1 f)
  rw [V_main_arg5]
  refine congrArg (m ((c : Thread nD τ).loc main_arg5)) (funext fun a => Fin.ext ?_)
  have e := idx_const t
  match a with
  | ⟨0, _⟩ => show win0_5.index t (0 : Fin 1) * 256 + 1 * f.val = f.val; have := e.2.2.2.2.2.1; omega

theorem blk6 (c : Dev nD) (t : Fin cfg0.N) :
    Gin.mat (a := 256) (b := 256) (iblk m c 6 t) = Gin.mat (a := 256) (b := 256) (m ((c : Thread nD τ).loc main_arg6)) := by
  funext r f
  show V m c main_arg6 (((cfg0.win 6).blk t).view.emb (ix2 r f)) = (m ((c : Thread nD τ).loc main_arg6)) (ix2 r f)
  rw [V_main_arg6]
  refine congrArg (m ((c : Thread nD τ).loc main_arg6)) (funext fun a => Fin.ext ?_)
  have e := idx_const t
  match a with
  | ⟨0, _⟩ => show win0_6.index t (0 : Fin 2) * 256 + 1 * r.val = r.val; have := e.2.2.2.2.2.2.1; omega
  | ⟨1, _⟩ => show win0_6.index t (1 : Fin 2) * 256 + 1 * f.val = f.val; have := e.2.2.2.2.2.2.2.1; omega

theorem blk7 (c : Dev nD) (t : Fin cfg0.N) :
    Gin.vec (a := 256) (iblk m c 7 t) = Gin.vec (a := 256) (m ((c : Thread nD τ).loc main_arg7)) := by
  funext f
  show V m c main_arg7 (((cfg0.win 7).blk t).view.emb (ix1 f)) = (m ((c : Thread nD τ).loc main_arg7)) (ix1 f)
  rw [V_main_arg7]
  refine congrArg (m ((c : Thread nD τ).loc main_arg7)) (funext fun a => Fin.ext ?_)
  have e := idx_const t
  match a with
  | ⟨0, _⟩ => show win0_7.index t (0 : Fin 1) * 256 + 1 * f.val = f.val; have := e.2.2.2.2.2.2.2.2.1; omega

theorem blk8 (c : Dev nD) (t : Fin cfg0.N) :
    Gin.mat (a := 256) (b := 128) (iblk m c 8 t) = Gin.mat (a := 256) (b := 128) (m ((c : Thread nD τ).loc main_arg8)) := by
  funext r f
  show V m c main_arg8 (((cfg0.win 8).blk t).view.emb (ix2 r f)) = (m ((c : Thread nD τ).loc main_arg8)) (ix2 r f)
  rw [V_main_arg8]
  refine congrArg (m ((c : Thread nD τ).loc main_arg8)) (funext fun a => Fin.ext ?_)
  have e := idx_const t
  match a with
  | ⟨0, _⟩ => show win0_8.index t (0 : Fin 2) * 256 + 1 * r.val = r.val; have := e.2.2.2.2.2.2.2.2.2.1; omega
  | ⟨1, _⟩ => show win0_8.index t (1 : Fin 2) * 128 + 1 * f.val = f.val; have := e.2.2.2.2.2.2.2.2.2.2.1; omega

theorem blk9 (c : Dev nD) (t : Fin cfg0.N) :
    Gin.vec (a := 128) (iblk m c 9 t) = Gin.vec (a := 128) (m ((c : Thread nD τ).loc main_arg9)) := by
  funext f
  show V m c main_arg9 (((cfg0.win 9).blk t).view.emb (ix1 f)) = (m ((c : Thread nD τ).loc main_arg9)) (ix1 f)
  rw [V_main_arg9]
  refine congrArg (m ((c : Thread nD τ).loc main_arg9)) (funext fun a => Fin.ext ?_)
  have e := idx_const t
  match a with
  | ⟨0, _⟩ => show win0_9.index t (0 : Fin 1) * 128 + 1 * f.val = f.val; have := e.2.2.2.2.2.2.2.2.2.2.2; omega

/-! ## What a point writes back, the cover, the array after the run -/

/-- WHAT POINT `t` WRITES BACK is block `t` of `Gin.G` of the argument arrays. -/
theorem flushed_eq (c : Dev nD) (t : Fin cfg0.N) :
    (dats m 0 c).flushed 10 t = ((cfg0.win 10).blk t).view.read (Elt Ideal) (Gin.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  show (cfg0.win 10).cut (grid0.coords t) ((dats m 0 c).after 10 t) = _
  rw [after0_10]
  funext y
  show out0_10 (iblk m c 0 t) (iblk m c 1 t) (iblk m c 2 t) (iblk m c 3 t) (iblk m c 4 t) (iblk m c 5 t) (iblk m c 6 t) (iblk m c 7 t) (iblk m c 8 t) (iblk m c 9 t) y = (Gin.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (((cfg0.win 10).blk t).view.emb y)
  refine (out_spec' (iblk m c 0 t) (iblk m c 1 t) (iblk m c 2 t) (iblk m c 3 t) (iblk m c 4 t) (iblk m c 5 t) (iblk m c 6 t) (iblk m c 7 t) (iblk m c 8 t) (iblk m c 9 t) y).trans ?_
  have hN : grid0.N = 4 := N_0
  have ht : t.val < 4 := by have h4 : t.val < grid0.N := t.isLt; omega
  have hy0 : (y 0).val < 16 := (y 0).isLt
  have hemb : ((cfg0.win 10).blk t).view.emb y = ix2 (⟨t.val * 16 + (y 0).val, by omega⟩ : Fin 64) (y 1) := by
    obtain ⟨-, -, -, -, -, -, e0, e1⟩ := idx_facts t
    funext a; apply Fin.ext
    match a with
    | ⟨0, _⟩ => show win0_10.index t (0 : Fin 2) * 16 + 1 * (y 0).val = t.val * 16 + (y 0).val; omega
    | ⟨1, _⟩ => show win0_10.index t (1 : Fin 2) * 128 + 1 * (y 1).val = (y 1).val; omega
  rw [hemb, blk0 m c t (y 0) ⟨t.val * 16 + (y 0).val, by omega⟩ rfl, blk1 m c t (y 0) ⟨t.val * 16 + (y 0).val, by omega⟩ rfl,
    blk2 m c t, blk3 m c t, blk4 m c t, blk5 m c t, blk6 m c t, blk7 m c t, blk8 m c t, blk9 m c t]
  rfl

/-- An index of the result is in point `t`'s block iff each coordinate is in the block's range on its axis. -/
theorem mem_blk (t : Fin cfg0.N) (i : S64x128.Idx) :
    i ∈ ((cfg0.win 10).blk t).view.set ↔ ∀ a : Fin 2, win0_10.index t a * S16x128.size a ≤ (i a).val ∧ (i a).val < win0_10.index t a * S16x128.size a + S16x128.size a := by
  show i ∈ ((View.whole main_v1).slice (win0_10.rect t)).set ↔ _
  rw [View.set_slice_whole, Rect.mem_set_unit]
  exact Iff.rfl

/-- The four blocks cover the result: row `r` is in the block of point `r / 16`. -/
theorem cover (i : S64x128.Idx) : ∃ t : Fin cfg0.N, (cfg0.win 10).flush t = true ∧ i ∈ ((cfg0.win 10).blk t).view.set := by
  have hi0 : (i 0).val < 64 := (i 0).isLt
  have hi1 : (i 1).val < 128 := (i 1).isLt
  have hN : grid0.N = 4 := N_0
  obtain ⟨t, htv⟩ : ∃ t : Fin cfg0.N, t.val = (i 0).val / 16 := ⟨⟨(i 0).val / 16, by show (i 0).val / 16 < grid0.N; omega⟩, rfl⟩
  refine ⟨t, flush0_10 t, ?_⟩
  rw [mem_blk]
  obtain ⟨-, -, -, -, -, -, e0, e1⟩ := idx_facts t
  intro a
  match a with
  | ⟨0, _⟩ => show win0_10.index t (0 : Fin 2) * 16 ≤ (i 0).val ∧ (i 0).val < win0_10.index t (0 : Fin 2) * 16 + 16; omega
  | ⟨1, _⟩ => show win0_10.index t (1 : Fin 2) * 128 ≤ (i 1).val ∧ (i 1).val < win0_10.index t (1 : Fin 2) * 128 + 128; omega

/-- THE RESULT ARRAY after the run is `Gin.G` of the argument arrays. -/
theorem final (c : Dev nD) : (dats m 0 c).arrAt 10 cfg0.N = (Gin.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :=
  (dats m 0 c).arrAt_eq_of_cover 10 (Gin.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (fun t _ => flushed_eq m c t) cover

/-- The second result: the constant the host writes after the region. -/
theorem tail_cst (c : Dev nD) :
    Pipeline.afterTail₀ cfgs (dats m) 0 (V0 m) [hostOps1] c main_cst = constant (F := Ideal) S_ .f32 0x00000000#32 := by
  unfold Pipeline.afterTail₀
  show StableHlo.after hostOps1 _ (Proc.devRef .tc main_cst) = _
  after_results

/-! ## The run -/

/-- Every weakly fair execution of the kernel program terminates with the result array at `Gin.G` of the arguments, the second
    result at the zero constant, and the arguments unchanged. -/
theorem run : θ_run defs (onTc (τ := τ) (main (F := Ideal))) ⟨m, fun _ => 0, ρ⟩ fun r => ∀ c : Dev nD,
      r.2.mem ((c : Thread nD τ).loc main_v1) = (Gin.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
      ∧ r.2.mem ((c : Thread nD τ).loc main_cst) = constant (F := Ideal) S_ .f32 0x00000000#32
      ∧ r.2.mem ((c : Thread nD τ).loc main_arg0) = (m ((c : Thread nD τ).loc main_arg0))
      ∧ r.2.mem ((c : Thread nD τ).loc main_arg1) = (m ((c : Thread nD τ).loc main_arg1))
      ∧ r.2.mem ((c : Thread nD τ).loc main_arg2) = (m ((c : Thread nD τ).loc main_arg2))
      ∧ r.2.mem ((c : Thread nD τ).loc main_arg3) = (m ((c : Thread nD τ).loc main_arg3))
      ∧ r.2.mem ((c : Thread nD τ).loc main_arg4) = (m ((c : Thread nD τ).loc main_arg4))
      ∧ r.2.mem ((c : Thread nD τ).loc main_arg5) = (m ((c : Thread nD τ).loc main_arg5))
      ∧ r.2.mem ((c : Thread nD τ).loc main_arg6) = (m ((c : Thread nD τ).loc main_arg6))
      ∧ r.2.mem ((c : Thread nD τ).loc main_arg7) = (m ((c : Thread nD τ).loc main_arg7))
      ∧ r.2.mem ((c : Thread nD τ).loc main_arg8) = (m ((c : Thread nD τ).loc main_arg8))
      ∧ r.2.mem ((c : Thread nD τ).loc main_arg9) = (m ((c : Thread nD τ).loc main_arg9)) :=
  (θ_run defs _ _).mono (fun r h c => ⟨((h c).1 10).trans (final m c),
      ((h c).2 main_cst (Pipeline.mem_restRefs_of main_cst (by decide) (by decide))).trans (tail_cst m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c)))⟩)
    (run_main m ρ)

end Cert.KernelIdeal.Blocks

end
-- ==== Proof.RefValue.lean ====
/-
  What the reference computes, read at an entry.

  The reference holds all 64 graphs at once: it drops the unit axis of the `[64, 256, 256, 1]` edge weights, and each
  layer is a batched product of the weights with the node features, plus one times the features, then a product with
  the layer's matrix over the last axis, the bias broadcast over graphs and nodes, and the maximum with zero; the
  last layer is summed over the nodes and sent through the readout. Batched products, broadcasts and the sum over the
  nodes never mix two graphs, so the result at `(b, o)` is output `o` of the network of graph `b` (`ref_apply`).

  Each stage is read at an index by its generated lemma; written here are the index maps those lemmas compose, read at
  coordinates, and the three layers and the readout as the functions of `Cert.Gin`.
-/
import proofs.«117813_g420906795687_cont_8to1_b_386_36_alg».proof.Proof.Gen.ReferenceIdeal.Read
import proofs.«117813_g420906795687_cont_8to1_b_386_36_alg».proof.Proof.Net
import Idealize.ShloMosaic.Lib.IdealHost
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-- Dropping the unit axis: entry `(b, n, j)` of the `[64, 256, 256]` weights is entry `(b, n, j, 0)` of the argument. -/
theorem idx_v0 (b : Fin 64) (n j : Fin 256) : idx_main_v0 (ix3 b n j) = ix4 b n j (0 : Fin 1) :=
  funext fun a => Fin.ext (by
    have := b.isLt; have := n.isLt; have := j.isLt
    match a with
    | ⟨0, _⟩ => show ((b.val * 256 + n.val) * 256 + j.val) / 65536 = b.val; omega
    | ⟨1, _⟩ => show ((b.val * 256 + n.val) * 256 + j.val) / 256 % 256 = n.val; omega
    | ⟨2, _⟩ => show ((b.val * 256 + n.val) * 256 + j.val) / 1 % 256 = j.val; omega
    | ⟨3, _⟩ => rfl)

theorem ref_adj (x0 : FVec Ideal S64x256x256x1 .f32) (b : Fin 64) (n j : Fin 256) :
    val_main_v0 (F := Ideal) x0 (ix3 b n j) = Gin.adj x0 b n j := by
  rw [val_main_v0_apply, idx_v0]
  rfl

/-! ### Layer 1 -/

theorem lidx_v1 (b : Fin 64) (n : Fin 256) (k : Fin 128) (j : Fin 256) : lidx_main_v1 (ix3 b n k) j = ix3 b n j :=
  funext fun a => Fin.ext (by match a with | ⟨0, _⟩ => rfl | ⟨1, _⟩ => rfl | ⟨2, _⟩ => rfl)
theorem ridx_v1 (b : Fin 64) (n : Fin 256) (k : Fin 128) (j : Fin 256) : ridx_main_v1 (ix3 b n k) j = ix3 b j k :=
  funext fun a => Fin.ext (by match a with | ⟨0, _⟩ => rfl | ⟨1, _⟩ => rfl | ⟨2, _⟩ => rfl)
theorem lidx_v5 (b : Fin 64) (n f : Fin 256) (k : Fin 128) : lidx_main_v5 (ix3 b n f) k = ix3 b n k :=
  funext fun a => Fin.ext (by match a with | ⟨0, _⟩ => rfl | ⟨1, _⟩ => rfl | ⟨2, _⟩ => rfl)
theorem ridx_v5 (b : Fin 64) (n f : Fin 256) (k : Fin 128) : ridx_main_v5 (ix3 b n f) k = ix2 k f :=
  funext fun a => Fin.ext (by match a with | ⟨0, _⟩ => rfl | ⟨1, _⟩ => rfl)
theorem idx_v7 (b : Fin 64) (n f : Fin 256) : idx_main_v6 (idx_main_v7 (ix3 b n f)) = ix1 f :=
  funext fun a => Fin.ext (by match a with | ⟨0, _⟩ => rfl)

/-- The aggregation of layer 1 at `(b, n, k)`: the reference multiplies the node's own features by the constant one,
    which changes no extended real. -/
theorem ref_agg1 (x0 : FVec Ideal S64x256x256x1 .f32) (x1 : FVec Ideal S64x256x128 .f32) (b : Fin 64) (n : Fin 256) (k : Fin 128) :
    val_main_v4 (F := Ideal) x0 x1 (ix3 b n k) = Gin.agg (Gin.adj x0 b) (Gin.slab x1 b) n k := by
  rw [val_main_v4_apply, val_main_v1_apply, val_main_v3_apply, val_main_v2_apply, val_main_cst_apply]
  simp only [lidx_v1, ridx_v1, ref_adj, Ideal.addf_def, Ideal.mulf_def, Ideal.ofBits_def, Ideal.ofBits_one_f32, one_mul]
  rfl

/-- Layer 1 at `(b, n, f)` is the layer of graph `b`. -/
theorem ref_layer1 (x0 : FVec Ideal S64x256x256x1 .f32) (x1 : FVec Ideal S64x256x128 .f32) (x2 : FVec Ideal S128x256 .f32) (x3 : FVec Ideal S256 .f32) (b : Fin 64) (n f : Fin 256) :
    val_main_v9 (F := Ideal) x0 x1 x2 x3 (ix3 b n f)
      = Gin.layer Gin.z (Gin.adj x0 b) (Gin.slab x1 b) (Gin.mat x2) (Gin.vec x3) n f := by
  rw [val_main_v9_apply, val_main_v8_apply, val_main_v5_apply, val_main_v7_apply, val_main_v6_apply,
    val_main_call0_v0_apply, val_main_call0_cst_apply]
  simp only [lidx_v5, ridx_v5, idx_v7, ref_agg1, Ideal.addf_def, Ideal.maximumf_def, Ideal.ofBits_def]
  rfl

/-! ### Layer 2 -/

theorem lidx_v10 (b : Fin 64) (n : Fin 256) (k : Fin 256) (j : Fin 256) : lidx_main_v10 (ix3 b n k) j = ix3 b n j :=
  funext fun a => Fin.ext (by match a with | ⟨0, _⟩ => rfl | ⟨1, _⟩ => rfl | ⟨2, _⟩ => rfl)
theorem ridx_v10 (b : Fin 64) (n : Fin 256) (k : Fin 256) (j : Fin 256) : ridx_main_v10 (ix3 b n k) j = ix3 b j k :=
  funext fun a => Fin.ext (by match a with | ⟨0, _⟩ => rfl | ⟨1, _⟩ => rfl | ⟨2, _⟩ => rfl)
theorem lidx_v14 (b : Fin 64) (n f : Fin 256) (k : Fin 256) : lidx_main_v14 (ix3 b n f) k = ix3 b n k :=
  funext fun a => Fin.ext (by match a with | ⟨0, _⟩ => rfl | ⟨1, _⟩ => rfl | ⟨2, _⟩ => rfl)
theorem ridx_v14 (b : Fin 64) (n f : Fin 256) (k : Fin 256) : ridx_main_v14 (ix3 b n f) k = ix2 k f :=
  funext fun a => Fin.ext (by match a with | ⟨0, _⟩ => rfl | ⟨1, _⟩ => rfl)
theorem idx_v16 (b : Fin 64) (n f : Fin 256) : idx_main_v15 (idx_main_v16 (ix3 b n f)) = ix1 f :=
  funext fun a => Fin.ext (by match a with | ⟨0, _⟩ => rfl)

/-- The aggregation of layer 2 at `(b, n, k)`: the reference multiplies the node's own features by the constant one,
    which changes no extended real. -/
theorem ref_agg2 (x0 : FVec Ideal S64x256x256x1 .f32) (x1 : FVec Ideal S64x256x128 .f32) (x2 : FVec Ideal S128x256 .f32) (x3 : FVec Ideal S256 .f32) (b : Fin 64) (n : Fin 256) (k : Fin 256) :
    val_main_v13 (F := Ideal) x0 x1 x2 x3 (ix3 b n k) = Gin.agg (Gin.adj x0 b) (Gin.slab (val_main_v9 (F := Ideal) x0 x1 x2 x3) b) n k := by
  rw [val_main_v13_apply, val_main_v10_apply, val_main_v12_apply, val_main_v11_apply, val_main_cst_0_apply]
  simp only [lidx_v10, ridx_v10, ref_adj, Ideal.addf_def, Ideal.mulf_def, Ideal.ofBits_def, Ideal.ofBits_one_f32, one_mul]
  rfl

/-- Layer 2 at `(b, n, f)` is the layer of graph `b`. -/
theorem ref_layer2 (x0 : FVec Ideal S64x256x256x1 .f32) (x1 : FVec Ideal S64x256x128 .f32) (x2 : FVec Ideal S128x256 .f32) (x3 : FVec Ideal S256 .f32) (x4 : FVec Ideal S256x256 .f32) (x5 : FVec Ideal S256 .f32) (b : Fin 64) (n f : Fin 256) :
    val_main_v18 (F := Ideal) x0 x1 x2 x3 x4 x5 (ix3 b n f)
      = Gin.layer Gin.z (Gin.adj x0 b) (Gin.slab (val_main_v9 (F := Ideal) x0 x1 x2 x3) b) (Gin.mat x4) (Gin.vec x5) n f := by
  rw [val_main_v18_apply, val_main_v17_apply, val_main_v14_apply, val_main_v16_apply, val_main_v15_apply,
    val_main_call1_v0_apply, val_main_call1_cst_apply]
  simp only [lidx_v14, ridx_v14, idx_v16, ref_agg2, Ideal.addf_def, Ideal.maximumf_def, Ideal.ofBits_def]
  rfl

/-! ### Layer 3 -/

theorem lidx_v19 (b : Fin 64) (n : Fin 256) (k : Fin 256) (j : Fin 256) : lidx_main_v19 (ix3 b n k) j = ix3 b n j :=
  funext fun a => Fin.ext (by match a with | ⟨0, _⟩ => rfl | ⟨1, _⟩ => rfl | ⟨2, _⟩ => rfl)
theorem ridx_v19 (b : Fin 64) (n : Fin 256) (k : Fin 256) (j : Fin 256) : ridx_main_v19 (ix3 b n k) j = ix3 b j k :=
  funext fun a => Fin.ext (by match a with | ⟨0, _⟩ => rfl | ⟨1, _⟩ => rfl | ⟨2, _⟩ => rfl)
theorem lidx_v23 (b : Fin 64) (n f : Fin 256) (k : Fin 256) : lidx_main_v23 (ix3 b n f) k = ix3 b n k :=
  funext fun a => Fin.ext (by match a with | ⟨0, _⟩ => rfl | ⟨1, _⟩ => rfl | ⟨2, _⟩ => rfl)
theorem ridx_v23 (b : Fin 64) (n f : Fin 256) (k : Fin 256) : ridx_main_v23 (ix3 b n f) k = ix2 k f :=
  funext fun a => Fin.ext (by match a with | ⟨0, _⟩ => rfl | ⟨1, _⟩ => rfl)
theorem idx_v25 (b : Fin 64) (n f : Fin 256) : idx_main_v24 (idx_main_v25 (ix3 b n f)) = ix1 f :=
  funext fun a => Fin.ext (by match a with | ⟨0, _⟩ => rfl)

/-- The aggregation of layer 3 at `(b, n, k)`: the reference multiplies the node's own features by the constant one,
    which changes no extended real. -/
theorem ref_agg3 (x0 : FVec Ideal S64x256x256x1 .f32) (x1 : FVec Ideal S64x256x128 .f32) (x2 : FVec Ideal S128x256 .f32) (x3 : FVec Ideal S256 .f32) (x4 : FVec Ideal S256x256 .f32) (x5 : FVec Ideal S256 .f32) (b : Fin 64) (n : Fin 256) (k : Fin 256) :
    val_main_v22 (F := Ideal) x0 x1 x2 x3 x4 x5 (ix3 b n k) = Gin.agg (Gin.adj x0 b) (Gin.slab (val_main_v18 (F := Ideal) x0 x1 x2 x3 x4 x5) b) n k := by
  rw [val_main_v22_apply, val_main_v19_apply, val_main_v21_apply, val_main_v20_apply, val_main_cst_1_apply]
  simp only [lidx_v19, ridx_v19, ref_adj, Ideal.addf_def, Ideal.mulf_def, Ideal.ofBits_def, Ideal.ofBits_one_f32, one_mul]
  rfl

/-- Layer 3 at `(b, n, f)` is the layer of graph `b`. -/
theorem ref_layer3 (x0 : FVec Ideal S64x256x256x1 .f32) (x1 : FVec Ideal S64x256x128 .f32) (x2 : FVec Ideal S128x256 .f32) (x3 : FVec Ideal S256 .f32) (x4 : FVec Ideal S256x256 .f32) (x5 : FVec Ideal S256 .f32) (x6 : FVec Ideal S256x256 .f32) (x7 : FVec Ideal S256 .f32) (b : Fin 64) (n f : Fin 256) :
    val_main_v27 (F := Ideal) x0 x1 x2 x3 x4 x5 x6 x7 (ix3 b n f)
      = Gin.layer Gin.z (Gin.adj x0 b) (Gin.slab (val_main_v18 (F := Ideal) x0 x1 x2 x3 x4 x5) b) (Gin.mat x6) (Gin.vec x7) n f := by
  rw [val_main_v27_apply, val_main_v26_apply, val_main_v23_apply, val_main_v25_apply, val_main_v24_apply,
    val_main_call2_v0_apply, val_main_call2_cst_apply]
  simp only [lidx_v23, ridx_v23, idx_v25, ref_agg3, Ideal.addf_def, Ideal.maximumf_def, Ideal.ofBits_def]
  rfl

/-! ### The sum over the nodes and the readout -/

theorem idx_v28 (b : Fin 64) (f n : Fin 256) : idx_main_v28 (ix2 b f) n = ix3 b n f :=
  funext fun a => Fin.ext (by match a with | ⟨0, _⟩ => rfl | ⟨1, _⟩ => rfl | ⟨2, _⟩ => rfl)
theorem lidx_v29 (b : Fin 64) (o : Fin 128) (f : Fin 256) : lidx_main_v29 (ix2 b o) f = ix2 b f :=
  funext fun a => Fin.ext (by match a with | ⟨0, _⟩ => rfl | ⟨1, _⟩ => rfl)
theorem ridx_v29 (b : Fin 64) (o : Fin 128) (f : Fin 256) : ridx_main_v29 (ix2 b o) f = ix2 f o :=
  funext fun a => Fin.ext (by match a with | ⟨0, _⟩ => rfl | ⟨1, _⟩ => rfl)
theorem idx_v31 (b : Fin 64) (o : Fin 128) : idx_main_v30 (idx_main_v31 (ix2 b o)) = ix1 o :=
  funext fun a => Fin.ext (by match a with | ⟨0, _⟩ => rfl)

/-- The pooled features of graph `b`: the reference's sum starts from the zero word, which adds nothing. -/
theorem ref_pool (x0 : FVec Ideal S64x256x256x1 .f32) (x1 : FVec Ideal S64x256x128 .f32) (x2 : FVec Ideal S128x256 .f32) (x3 : FVec Ideal S256 .f32) (x4 : FVec Ideal S256x256 .f32) (x5 : FVec Ideal S256 .f32) (x6 : FVec Ideal S256x256 .f32) (x7 : FVec Ideal S256 .f32) (b : Fin 64) (f : Fin 256) :
    val_main_v28 (F := Ideal) x0 x1 x2 x3 x4 x5 x6 x7 (ix2 b f) = Gin.pool (Gin.slab (val_main_v27 (F := Ideal) x0 x1 x2 x3 x4 x5 x6 x7) b) f := by
  rw [val_main_v28_apply, val_main_cst_2_apply]
  simp only [idx_v28, Ideal.ofBits_def, Ideal.ofBits_zero_f32, zero_add]
  rfl

theorem ref_out (x0 : FVec Ideal S64x256x256x1 .f32) (x1 : FVec Ideal S64x256x128 .f32) (x2 : FVec Ideal S128x256 .f32) (x3 : FVec Ideal S256 .f32) (x4 : FVec Ideal S256x256 .f32) (x5 : FVec Ideal S256 .f32) (x6 : FVec Ideal S256x256 .f32) (x7 : FVec Ideal S256 .f32) (x8 : FVec Ideal S256x128 .f32) (x9 : FVec Ideal S128 .f32) (b : Fin 64) (o : Fin 128) :
    val_main_v32 (F := Ideal) x0 x1 x2 x3 x4 x5 x6 x7 x8 x9 (ix2 b o)
      = Gin.readout (Gin.slab (val_main_v27 (F := Ideal) x0 x1 x2 x3 x4 x5 x6 x7) b) (Gin.mat x8) (Gin.vec x9) o := by
  rw [val_main_v32_apply, val_main_v29_apply, val_main_v31_apply, val_main_v30_apply]
  simp only [lidx_v29, ridx_v29, idx_v31, ref_pool, Ideal.addf_def]
  rfl

/-- THE REFERENCE'S VALUE: the result at `(b, o)` is output `o` of the network of graph `b`. -/
theorem ref_apply (x0 : FVec Ideal S64x256x256x1 .f32) (x1 : FVec Ideal S64x256x128 .f32) (x2 : FVec Ideal S128x256 .f32) (x3 : FVec Ideal S256 .f32) (x4 : FVec Ideal S256x256 .f32) (x5 : FVec Ideal S256 .f32) (x6 : FVec Ideal S256x256 .f32) (x7 : FVec Ideal S256 .f32) (x8 : FVec Ideal S256x128 .f32) (x9 : FVec Ideal S128 .f32) (b : Fin 64) (o : Fin 128) :
    val_main_v32 (F := Ideal) x0 x1 x2 x3 x4 x5 x6 x7 x8 x9 (ix2 b o)
      = Gin.net Gin.z (Gin.adj x0 b) (Gin.slab x1 b) (Gin.mat x2) (Gin.vec x3) (Gin.mat x4) (Gin.vec x5) (Gin.mat x6) (Gin.vec x7)
          (Gin.mat x8) (Gin.vec x9) o := by
  have e1 : Gin.slab (val_main_v9 (F := Ideal) x0 x1 x2 x3) b
      = Gin.layer Gin.z (Gin.adj x0 b) (Gin.slab x1 b) (Gin.mat x2) (Gin.vec x3) :=
    funext fun n => funext fun f => ref_layer1 x0 x1 x2 x3 b n f
  have e2 : Gin.slab (val_main_v18 (F := Ideal) x0 x1 x2 x3 x4 x5) b
      = Gin.layer Gin.z (Gin.adj x0 b) (Gin.layer Gin.z (Gin.adj x0 b) (Gin.slab x1 b) (Gin.mat x2) (Gin.vec x3)) (Gin.mat x4) (Gin.vec x5) :=
    funext fun n => funext fun f => (ref_layer2 x0 x1 x2 x3 x4 x5 b n f).trans (by rw [e1])
  have e3 : Gin.slab (val_main_v27 (F := Ideal) x0 x1 x2 x3 x4 x5 x6 x7) b
      = Gin.layer Gin.z (Gin.adj x0 b) (Gin.layer Gin.z (Gin.adj x0 b) (Gin.layer Gin.z (Gin.adj x0 b) (Gin.slab x1 b) (Gin.mat x2) (Gin.vec x3)) (Gin.mat x4) (Gin.vec x5)) (Gin.mat x6) (Gin.vec x7) :=
    funext fun n => funext fun f => (ref_layer3 x0 x1 x2 x3 x4 x5 x6 x7 b n f).trans (by rw [e2])
  rw [ref_out, e3]
  rfl

end Cert.ReferenceIdeal.RefValue

end
-- ==== Proof.lean ====
/-
  The kernel computes a three-layer graph network on 64 graphs of 256 nodes, 16 graphs per grid point, with every matrix
  product taken over the 16 graphs of the block at once; the reference computes the same network on all 64 graphs with
  batched products. Over the extended reals both results are, entry by entry, the same function `Gin.G` of the ten
  argument arrays:

  * the kernel's result array after the run is `Gin.G` of the arguments (`Cert.KernelIdeal.Blocks.run`: the body's stored
    value at an entry is the network of that entry's graph, each grid point writes back its block of `Gin.G`, and the four
    blocks cover the array);
  * the reference's result is `Gin.G` of the arguments (`ref_eq_G`, from `Cert.ReferenceIdeal.RefValue.ref_apply` at every
    entry); the one difference between the two texts is that the reference multiplies a node's own features by the
    constant one before adding them, and one times an extended real is that extended real;
  * both programs return the zero constant as their second result.

  No sum is rearranged and nothing is cancelled, so the finiteness of the inputs is never used. The three frame claims are
  the generated frame of each kernel program and the reference's generated run with its results dropped; the idealized
  kernel is the kernel's own text read over the extended reals, so there is nothing to preserve.
-/
import proofs.«117813_g420906795687_cont_8to1_b_386_36_alg».proof.Defs
import proofs.«117813_g420906795687_cont_8to1_b_386_36_alg».proof.Proof.Gen.Kernel
import proofs.«117813_g420906795687_cont_8to1_b_386_36_alg».proof.Proof.Gen.Kernel.Frame
import proofs.«117813_g420906795687_cont_8to1_b_386_36_alg».proof.Proof.Gen.KernelIdeal
import proofs.«117813_g420906795687_cont_8to1_b_386_36_alg».proof.Proof.Gen.KernelIdeal.Frame
import proofs.«117813_g420906795687_cont_8to1_b_386_36_alg».proof.Proof.Gen.ReferenceIdeal
import proofs.«117813_g420906795687_cont_8to1_b_386_36_alg».proof.Proof.Gen.Pre_finite_inputs
import proofs.«117813_g420906795687_cont_8to1_b_386_36_alg».proof.Proof.Gen.ReferenceIdeal.Run
import proofs.«117813_g420906795687_cont_8to1_b_386_36_alg».proof.Proof.Gen.ReferenceIdeal.Read
import proofs.«117813_g420906795687_cont_8to1_b_386_36_alg».proof.Proof.Whole
import proofs.«117813_g420906795687_cont_8to1_b_386_36_alg».proof.Proof.Blocks
import proofs.«117813_g420906795687_cont_8to1_b_386_36_alg».proof.Proof.RefValue
import Idealize.ShloMosaic.Adequacy
import Idealize.ShloMosaic.Init

noncomputable section

namespace Cert.Proof

open Idealize.ShloMosaic Idealize.SL.Sem Idealize.ShloMosaic.ValueIdx

/-- The reference's last stage, as a whole array, is `Gin.G` of the arguments: at every entry `(b, o)` both are output `o`
    of the network of graph `b`. -/
theorem ref_eq_G (x0 : FVec Ideal Cert.ReferenceIdeal.S64x256x256x1 .f32) (x1 : FVec Ideal Cert.ReferenceIdeal.S64x256x128 .f32) (x2 : FVec Ideal Cert.ReferenceIdeal.S128x256 .f32) (x3 : FVec Ideal Cert.ReferenceIdeal.S256 .f32) (x4 : FVec Ideal Cert.ReferenceIdeal.S256x256 .f32) (x5 : FVec Ideal Cert.ReferenceIdeal.S256 .f32) (x6 : FVec Ideal Cert.ReferenceIdeal.S256x256 .f32) (x7 : FVec Ideal Cert.ReferenceIdeal.S256 .f32) (x8 : FVec Ideal Cert.ReferenceIdeal.S256x128 .f32) (x9 : FVec Ideal Cert.ReferenceIdeal.S128 .f32) :
    Cert.ReferenceIdeal.Read.val_main_v32 (F := Ideal) x0 x1 x2 x3 x4 x5 x6 x7 x8 x9 = Cert.Gin.G x0 x1 x2 x3 x4 x5 x6 x7 x8 x9 := by
  funext i
  obtain ⟨b, o, rfl⟩ : ∃ (b : Fin 64) (o : Fin 128), i = ix2 b o := ⟨i 0, i 1, eq_ix2 i⟩
  exact Cert.ReferenceIdeal.RefValue.ref_apply x0 x1 x2 x3 x4 x5 x6 x7 x8 x9 b o

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories that agree on the arguments both programs end with the first result at `Gin.G` of the arguments and the
    second at the zero constant. -/
theorem algebraic : Cert.algebraic_KernelIdeal_ReferenceIdeal := by
  intro m ρ m' ρ' _ hagree
  refine ⟨fun c => Cert.Gin.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun _ => constant (F := Ideal) Cert.KernelIdeal.S_ .f32 0x00000000#32, Cert.KernelIdeal.Blocks.run m ρ, ?_⟩
  refine (θ_run Cert.ReferenceIdeal.defs _ _).mono (fun _ h c => ⟨(h c).1.trans ?_, (h c).2.1, (h c).2.2⟩)
    (Cert.ReferenceIdeal.Value.run (F := Ideal) m' ρ')
  rw [Cert.ReferenceIdeal.Read.val_main_v32_eq, ref_eq_G]
  obtain ⟨h0, h1, h2, h3, h4, h5, h6, h7, h8, h9⟩ := hagree c
  rw [h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
